-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 112
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S128x128, .f32⟩
  | .hbm, ⟨28, _⟩ => ⟨S1x128, .f32⟩
  | .hbm, ⟨29, _⟩ => ⟨S50000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S128x128, .f32⟩
  | .hbm, ⟨77, _⟩ => ⟨S1x128, .f32⟩
  | .hbm, ⟨78, _⟩ => ⟨S50000x128, .f32⟩
  | .hbm, ⟨79, _⟩ => ⟨S_, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S_, .i32⟩
  | .hbm, ⟨85, _⟩ => ⟨S_, .f32⟩
  | .hbm, ⟨86, _⟩ => ⟨S128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_4 : Ref sig .tc := ⟨.hbm, 63, rfl⟩
abbrev main_v26 : Ref sig .tc := ⟨.hbm, 64, rfl⟩
abbrev main_v27 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_cst_8 : Ref sig .tc := ⟨.hbm, 81, rfl⟩
abbrev main_v40 : Ref sig .tc := ⟨.hbm, 82, rfl⟩
abbrev main_v41 : Ref sig .tc := ⟨.hbm, 83, rfl⟩
abbrev main_c_9 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x600000, .i32⟩
  | 11 => ⟨S600000, .i32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S50000x128, .f32⟩
  | 28 => ⟨S128x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S50000x128, .f32⟩
  | 94 => ⟨S128x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_cst_3 : Ref sig .tc := ⟨.hbm, 58, rfl⟩
abbrev main_call1_v12 : Ref sig .tc := ⟨.hbm, 59, rfl⟩
abbrev main_call1_cst_4 : Ref sig .tc := ⟨.hbm, 60, rfl⟩
abbrev main_call1_call0_v0 : Ref sig .tc := ⟨.hbm, 61, rfl⟩
abbrev main_call1_call0_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_4 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_5 : Ref sig .tc := ⟨.hbm, 80, rfl⟩
abbrev main_v40 : Ref sig .tc := ⟨.hbm, 81, rfl⟩
abbrev main_v41 : Ref sig .tc := ⟨.hbm, 82, rfl⟩
abbrev main_c_6 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_7 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call2_cst : Ref sig .tc := ⟨.hbm, 99, rfl⟩
abbrev main_call2_v0 : Ref sig .tc := ⟨.hbm, 100, rfl⟩
abbrev main_v56 : Ref sig .tc := ⟨.hbm, 101, rfl⟩
abbrev main_cst_8 : Ref sig .tc := ⟨.hbm, 102, rfl⟩
abbrev main_v57 : Ref sig .tc := ⟨.hbm, 103, rfl⟩
abbrev main_cst_9 : Ref sig .tc := ⟨.hbm, 104, rfl⟩
abbrev main_v58 : Ref sig .tc := ⟨.hbm, 105, rfl⟩
abbrev main_v59 : Ref sig .tc := ⟨.hbm, 106, rfl⟩
abbrev main_c_10 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_cst_1 : Ref sig .tc := ⟨.hbm, 118, rfl⟩
abbrev main_call3_v8 : Ref sig .tc := ⟨.hbm, 119, rfl⟩
abbrev main_call3_cst_2 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_cst_3 : Ref sig .tc := ⟨.hbm, 124, rfl⟩
abbrev main_call3_v12 : Ref sig .tc := ⟨.hbm, 125, rfl⟩
abbrev main_call3_cst_4 : Ref sig .tc := ⟨.hbm, 126, rfl⟩
abbrev main_call3_call0_v0 : Ref sig .tc := ⟨.hbm, 127, rfl⟩
abbrev main_call3_call0_v1 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_11 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«108814_j8572754723378_1_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«108814_j8572754723378_1_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.Spec.lean ====
/-
  The two dense passes of a GIN layer, entry by entry, on the extended reals, for any number of rows.

  `dense h a wt b` is the array whose entry (r, c) is max(∑ₖ (h(r,k) + a(r,k)) · wt(k,c) + b(c), 0): the rows of the sum
  of two arrays times a fixed matrix, a bias added to every row, clamped below at zero.
  `norm x mu va g be` is the array whose entry (r, c) is g(c) · (x(r,c) − mu(c)) · rsqrt(va(c) + ε) + be(c): every column
  shifted and scaled by that column's four numbers; ε is the single-precision word nearest 10⁻⁵, kept as a word.
  Both act on each row by itself, so a block of consecutive rows of the inputs gives the same rows of the result.
-/
import Idealize.ShloMosaic.Lib.ValueIdx
import Idealize.ShloMosaic.PureOps.Ideal.Laws
import proofs.«108814_j8572754723378_1_alg».proof.Proof.LibRowBlocks

noncomputable section

namespace Cert.Gin

open Idealize.ShloMosaic Idealize.ShloMosaic.ValueIdx Cert.MatProduct Cert.Bridge

/-- The clamp's floor, as the word the programs write. -/
abbrev zeroW : EReal := Ideal.ofBits .f32 0x00000000#32
/-- The variance's offset, as the word the programs write. -/
abbrev epsW : EReal := Ideal.ofBits .f32 0x3727C5AC#32

/-- Rows of `h + a` times `wt`, plus the bias of the column, clamped below at zero. -/
def dense {M : ℕ} (h a : (⟨2, ![M, 128]⟩ : Shape).Idx → EReal) (wt : (⟨2, ![128, 128]⟩ : Shape).Idx → EReal)
    (b : Fin 128 → EReal) : (⟨2, ![M, 128]⟩ : Shape).Idx → EReal :=
  fun i => max (prod (fun j => h j + a j) wt i + b (colOf i)) zeroW

/-- Every column shifted by its mean and scaled by its weight over the root of its offset variance, plus its bias. -/
def norm {M : ℕ} (x : (⟨2, ![M, 128]⟩ : Shape).Idx → EReal) (mu va g be : Fin 128 → EReal) :
    (⟨2, ![M, 128]⟩ : Shape).Idx → EReal :=
  fun i => g (colOf i) * (x i - mu (colOf i)) * Ideal.rsqrt (va (colOf i) + epsW) + be (colOf i)

theorem colOf_ix2 {M N : ℕ} (p : Fin M) (j : Fin N) : colOf (ix2 p j) = j := rfl
theorem rowOf_ix2 {M N : ℕ} (p : Fin M) (j : Fin N) : rowOf (ix2 p j) = p := rfl

theorem dense_apply {M : ℕ} (h a : (⟨2, ![M, 128]⟩ : Shape).Idx → EReal) (wt : (⟨2, ![128, 128]⟩ : Shape).Idx → EReal)
    (b : Fin 128 → EReal) (p : Fin M) (j : Fin 128) :
    dense h a wt b (ix2 p j) = max ((∑ k : Fin 128, (h (ix2 p k) + a (ix2 p k)) * wt (ix2 k j)) + b j) zeroW := rfl

theorem norm_apply {M : ℕ} (x : (⟨2, ![M, 128]⟩ : Shape).Idx → EReal) (mu va g be : Fin 128 → EReal) (p : Fin M) (j : Fin 128) :
    norm x mu va g be (ix2 p j) = g j * (x (ix2 p j) - mu j) * Ideal.rsqrt (va j + epsW) + be j := rfl

/-- A block of rows of the two inputs gives the same rows of the dense pass. -/
theorem dense_rows {M R o : ℕ} {h a : (⟨2, ![M, 128]⟩ : Shape).Idx → EReal} {h' a' : (⟨2, ![R, 128]⟩ : Shape).Idx → EReal}
    (hh : RowsAt o h h') (ha : RowsAt o a a') (wt : (⟨2, ![128, 128]⟩ : Shape).Idx → EReal) (b : Fin 128 → EReal) :
    RowsAt o (dense h a wt b) (dense h' a' wt b) :=
  fun p r j e => by
    rw [dense_apply, dense_apply]
    congr 2
    exact Finset.sum_congr rfl fun k _ => by rw [hh p r k e, ha p r k e]

/-- A block of rows of the input gives the same rows of the normalisation. -/
theorem norm_rows {M R o : ℕ} {x : (⟨2, ![M, 128]⟩ : Shape).Idx → EReal} {x' : (⟨2, ![R, 128]⟩ : Shape).Idx → EReal}
    (hx : RowsAt o x x') (mu va g be : Fin 128 → EReal) :
    RowsAt o (norm x mu va g be) (norm x' mu va g be) :=
  fun p r j e => by
    rw [norm_apply, norm_apply, hx p r j e]

end Cert.Gin

end
-- ==== Proof.KDefs.lean ====
/-
  The host-side pieces of one GIN layer, as functions of arrays of extended reals.

  `agg h ei` is the neighbourhood sum: row 0 of `ei` lists each edge's source node and row 1 its destination; every edge adds
  its source's row of `h` to its destination's row of a zero array (a source index below zero is read from the end, as the
  programs do before gathering). `colMean x` is each column's sum over the 50000 rows divided by 50000, and `colVar x` the
  same mean of the squared distances to the column's mean (the programs' guard on the divisor 50000 − 0 being positive kept
  as they write it). `layer` puts them around the two dense passes: the rows of `h + agg h` times the transposed weights
  plus the bias, clamped at zero; then every column shifted by its mean and scaled by its weight over the root of its
  offset variance, plus its bias. Nothing here is opened by the proofs that use it: both programs apply these same host
  operations, and only the dense passes differ.
-/
import proofs.«108814_j8572754723378_1_alg».proof.KernelIdeal
import proofs.«108814_j8572754723378_1_alg».proof.Proof.Spec

noncomputable section

namespace Cert.KernelIdeal.KVal

open Idealize.ShloMosaic Idealize.ShloMosaic.ValueIdx Cert.KernelIdeal
variable [Facts]
open Facts₀ Facts

/-- The neighbourhood sum of the rows of `h` along the edges `ei`. -/
def agg (h : FVec Ideal S50000x128 .f32) (ei : IVec S2x600000 32) : FVec Ideal S50000x128 .f32 :=
  let src : IVec S600000 32 := shapeCast S600000 (extractStridedSlice S1x600000 ![0, 0] ei slices_S2x600000_S1x600000_0_0) shapeCasts_S1x600000_S600000
  let dst : IVec S600000 32 := shapeCast S600000 (extractStridedSlice S1x600000 ![1, 0] ei slices_S2x600000_S1x600000_1_0) shapeCasts_S1x600000_S600000
  let wrapped : IVec S600000 32 :=
    select (cmpi .slt src (broadcastInDim S600000 ![] bcast_S_S600000 (constantI S_ 32 0#32)))
      (addi src (broadcastInDim S600000 ![] bcast_S_S600000 (constantI S_ 32 50000#32))) src
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h (broadcastInDim S600000x1 ![0] bcast_S600000_S600000x1_0 wrapped))

/-- Each column's mean over the rows. -/
def colMean (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- Each column's mean squared distance to its mean. -/
def colVar (x : FVec Ideal S50000x128 .f32) : FVec Ideal S128 .f32 :=
  let mean : FVec Ideal S1x128 .f32 :=
    Host.divf (broadcastInDim S1x128 ![1] bcast_S128_S1x128_1 (Host.reduceAdd x (constant (F := Ideal) S_ .f32 0x00000000#32) reducesTo_S50000x128_S128_d0 h_S_))
      (broadcastInDim S1x128 ![] bcast_S_S1x128 (constant (F := Ideal) S_ .f32 0x47435000#32))
  let centred : FVec Ideal S50000x128 .f32 := subf x (broadcastInDim S50000x128 ![0, 1] bcast_S1x128_S50000x128_0_1 mean)
  let count : FVec Ideal S_ .f32 := subf (constant (F := Ideal) S_ .f32 0x47435000#32) (sitofp .f32 (constantI S_ 32 0#32))
  select (broadcastInDim S128 ![] bcast_S_S128 (cmpf .ogt count (constant (F := Ideal) S_ .f32 0x00000000#32)))
    (Host.divf (Host.reduceAdd (mulf centred centred) (constant (F := Ideal) S_ .f32 0x00000000#32) reducesTo_S50000x128_S128_d0 h_S_)
      (broadcastInDim S128 ![] bcast_S_S128 count))
    (broadcastInDim S128 ![] bcast_S_S128 (id (constant (F := Ideal) S_ .f32 0x7FC00000#32)))

/-- The dense pass of a layer: what the clamp leaves. -/
def act (h : FVec Ideal S50000x128 .f32) (ei : IVec S2x600000 32) (W : FVec Ideal S128x128 .f32) (b : FVec Ideal S128 .f32) :
    FVec Ideal S50000x128 .f32 :=
  Cert.Gin.dense (M := 50000) h (agg h ei) (transpose S128x128 [1, 0] W transposes_S128x128_S128x128_1_0) (fun j => b (ix1 j))

/-- One layer: the dense pass, then the normalisation by its own column statistics. -/
def layer (h : FVec Ideal S50000x128 .f32) (ei : IVec S2x600000 32) (W : FVec Ideal S128x128 .f32) (b g be : FVec Ideal S128 .f32) :
    FVec Ideal S50000x128 .f32 :=
  Cert.Gin.norm (M := 50000) (act h ei W b) (fun j => colMean (act h ei W b) (ix1 j)) (fun j => colVar (act h ei W b) (ix1 j))
    (fun j => g (ix1 j)) (fun j => be (ix1 j))

end Cert.KernelIdeal.KVal

end
-- ==== Proof.KRun.lean ====
/-
  The kernel program's run with its result named.

  The generated frame certificate runs @main as twelve segments and ends with every unscoped buffer of each core at the last
  boundary's contents `W12`; its stated conclusion keeps only the ten argument arrays. Here the same launch is read at the
  result buffer as well: after the run `main_v47` holds `W12` at that buffer, and the arguments are as launched.
-/
import proofs.«108814_j8572754723378_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the ten arguments as launched. -/
theorem run_named : θ_run defs (onTc (τ := τ) (main (F := F))) ⟨m, fun _ => 0, ρ⟩ (fun r => ∀ c : Dev nD,
      r.2.mem ((c.tc : Thread nD τ).loc main_v47) = W12 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v47 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.KVal

end
-- ==== Proof.KDense0.lean ====
/-
  The first dense pass of each layer as a grid of row blocks: the array a dense region leaves.

  The body's stored value is `dense` of its four loaded blocks; the two row windows' blocks at grid point t are rows
  5000·t … 5000·t + 4999 of their arrays, the weight and bias windows' blocks are their whole arrays; so what point t
  writes back is rows 5000·t … of `dense` of the whole arrays, and the ten points' blocks cover all 50000 rows.
-/
import proofs.«108814_j8572754723378_1_alg».proof.Proof.Gen.KernelIdeal.Frame
import proofs.«108814_j8572754723378_1_alg».proof.Proof.Spec
import Idealize.ShloMosaic.Lib.Pipeline.Value
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Bridge Cert.MatProduct

theorem hzero : (![0, 0] : Fin 2 → Nat) = fun _ => 0 := funext fun a => by fin_cases a <;> rfl

/-- The dense body's stored value is `dense` of the loaded blocks, the bias block read along its one row. -/
theorem dense0_pay (x0 x1 : Vec Ideal S5000x128 .f32) (x2 : Vec Ideal S128x128 .f32) (x3 : Vec Ideal S1x128 .f32) :
    k0_pay1 (F := Ideal) x0 x1 x2 x3 = dense (M := 5000) x0 x1 x2 (fun j => x3 (ix2 (0 : Fin 1) j)) := by
  funext y
  obtain ⟨p, q, rfl⟩ : ∃ (p : Fin 5000) (q : Fin 128), y = ix2 p q := ⟨rowOf y, colOf y, eq_row_col y⟩
  rw [dense_apply]
  unfold k0_pay1
  simp only [shapeCast_self]
  have hm : matmul dot_S5000x128_S128x128_S5000x128_1_0_0_1_n_n none (addf x0 x1) x2 (constant (F := Ideal) S5000x128 .f32 0x00000000#32) (ix2 p q)
      = ∑ k : Fin 128, (x0 (ix2 p k) + x1 (ix2 p k)) * x2 (ix2 k q) :=
    Cert.Sage.matmul_plain_zero_apply (M := 5000) (K := 128) (N := 128) (φ₁ := .f32) (φ₂ := .f32) none
      (addf (F := Ideal) (s := S5000x128) (φ := .f32) x0 x1) x2 p q
  have hb : broadcastTo S5000x128 x3 broadcasts_S1x128_S5000x128 (ix2 p q) = x3 (ix2 (0 : Fin 1) q) :=
    broadcastTo_1b_ab_apply (a := 5000) (b := 128) x3 broadcasts_S1x128_S5000x128 p q
  show max (matmul dot_S5000x128_S128x128_S5000x128_1_0_0_1_n_n none (addf x0 x1) x2 (constant (F := Ideal) S5000x128 .f32 0x00000000#32) (ix2 p q)
      + broadcastTo S5000x128 x3 broadcasts_S1x128_S5000x128 (ix2 p q)) zeroW = _
  rw [hm, hb]

variable (V : (c : Dev nD) → (b : Ref sig .tc) → Buf (Elt Ideal) ((c : Thread nD τ).loc b))

/-- The printed index maps over the ten grid points: the row windows sit at block row t, the others at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point t is rows 5000·t … of its array. -/
theorem rows0_0 (c : Dev nD) (t : Fin cfg0.N) :
    RowsAt (M := 5000) (R := 50000) (N := 128) (5000 * t.val) (iblk0 V c 0 t) (V c main_arg0) := by
  intro p r j e
  show V c main_arg0 (((cfg0.win 0).blk t).view.emb (ix2 p j)) = V c main_arg0 (ix2 r j)
  refine congrArg _ (funext fun a => Fin.ext ?_)
  obtain ⟨e0, e1, -⟩ := idx0 t
  match a with
  | ⟨0, _⟩ => show win0_0.index t (0 : Fin 2) * 5000 + 1 * p.val = r.val; omega
  | ⟨1, _⟩ => show win0_0.index t (1 : Fin 2) * 128 + 1 * j.val = j.val; omega

/-- Window 1's block at point t is rows 5000·t … of its array. -/
theorem rows0_1 (c : Dev nD) (t : Fin cfg0.N) :
    RowsAt (M := 5000) (R := 50000) (N := 128) (5000 * t.val) (iblk0 V c 1 t) (V c main_v13) := by
  intro p r j e
  show V c main_v13 (((cfg0.win 1).blk t).view.emb (ix2 p j)) = V c main_v13 (ix2 r j)
  refine congrArg _ (funext fun a => Fin.ext ?_)
  obtain ⟨-, -, e0, e1, -⟩ := idx0 t
  match a with
  | ⟨0, _⟩ => show win0_1.index t (0 : Fin 2) * 5000 + 1 * p.val = r.val; omega
  | ⟨1, _⟩ => show win0_1.index t (1 : Fin 2) * 128 + 1 * j.val = j.val; omega

/-- Window 2's block is its whole array. -/
theorem whole0_2 (c : Dev nD) (t : Fin cfg0.N) : (iblk0 V c 2 t : S128x128.Idx → EReal) = V c main_v14 := by
  funext y
  show V c main_v14 (((cfg0.win 2).blk t).view.emb y) = V c main_v14 y
  refine congrArg _ (funext fun a => Fin.ext ?_)
  obtain ⟨-, -, -, -, e0, e1, -⟩ := idx0 t
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array. -/
theorem whole0_3 (c : Dev nD) (t : Fin cfg0.N) : (iblk0 V c 3 t : S1x128.Idx → EReal) = V c main_v15 := by
  funext y
  show V c main_v15 (((cfg0.win 3).blk t).view.emb y) = V c main_v15 y
  refine congrArg _ (funext fun a => Fin.ext ?_)
  obtain ⟨-, -, -, -, -, -, e0, e1, -⟩ := idx0 t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The whole-array value of region 0 at the entry contents. -/
abbrev G0 (c : Dev nD) : S50000x128.Idx → EReal :=
  dense (M := 50000) (V c main_arg0) (V c main_v13) (V c main_v14) (fun j => V c main_v15 (ix2 (0 : Fin 1) j))

/-- What point t writes back is block t of the whole-array value. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hzero]
  simp only [View.ld_unit_zero (S := S5000x128) hzero, View.ld_unit_zero (S := S128x128) hzero, View.ld_unit_zero (S := S1x128) hzero]
  rw [dense0_pay, whole0_2 V c t, whole0_3 V c t]
  funext y
  obtain ⟨p, q, rfl⟩ : ∃ (p : Fin 5000) (q : Fin 128), y = ix2 p q := ⟨rowOf y, colOf y, eq_row_col y⟩
  obtain ⟨-, -, -, -, -, -, -, -, e0, e1⟩ := idx0 t
  have ht : t.val < 10 := t.isLt
  have hr : 5000 * t.val + p.val < 50000 := by have := p.isLt; omega
  have hemb : ((cfg0.win 4).blk t).view.emb (ix2 p q) = ix2 (⟨5000 * t.val + p.val, hr⟩ : Fin 50000) q := by
    funext a; apply Fin.ext
    match a with
    | ⟨0, _⟩ => show win0_4.index t (0 : Fin 2) * 5000 + 1 * p.val = 5000 * t.val + p.val; omega
    | ⟨1, _⟩ => show win0_4.index t (1 : Fin 2) * 128 + 1 * q.val = q.val; omega
  show dense (M := 5000) (iblk0 V c 0 t) (iblk0 V c 1 t) (V c main_v14) (fun j => V c main_v15 (ix2 (0 : Fin 1) j)) (ix2 p q)
      = G0 V c (((cfg0.win 4).blk t).view.emb (ix2 p q))
  rw [hemb]
  exact dense_rows (rows0_0 V c t) (rows0_1 V c t) _ _ p ⟨5000 * t.val + p.val, hr⟩ q rfl

/-- An index of the array is in point t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16).slice (win0_4.rect t)).set ↔ _
  rw [View.set_slice_whole, Rect.mem_set_unit]
  exact Iff.rfl

/-- Every row of the array is in the block of the point numbered by the row's quotient by 5000. -/
theorem cover0 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 5000, by show _ < 10; omega⟩, flush0_4 _, ?_⟩
  rw [mem_blk0]
  obtain ⟨-, -, -, -, -, -, -, -, e0, e1⟩ := idx0 ⟨(i 0).val / 5000, by show _ < 10; omega⟩
  intro a
  match a with
  | ⟨0, _⟩ => show win0_4.index _ (0 : Fin 2) * 5000 ≤ (i 0).val ∧ (i 0).val < win0_4.index _ (0 : Fin 2) * 5000 + 5000; rw [e0]; show (i 0).val / 5000 * 5000 ≤ _ ∧ _ < (i 0).val / 5000 * 5000 + 5000; omega
  | ⟨1, _⟩ => show win0_4.index _ (1 : Fin 2) * 128 ≤ (i 1).val ∧ (i 1).val < win0_4.index _ (1 : Fin 2) * 128 + 128; rw [e1]; omega

/-- The array region 0 leaves: `dense` of its four arrays as the region finds them. -/
theorem final0 (c : Dev nD) : (dat0 V c).arrAt 4 cfg0.N = G0 V c :=
  (dat0 V c).arrAt_eq_of_cover 4 (G0 V c) (fun t _ => flushed0 V c t) cover0

end Cert.KernelIdeal.KVal

end
-- ==== Proof.KNorm1.lean ====
/-
  The first layer's normalisation pass as a grid of row blocks: the array it leaves.

  The body's stored value is `norm` of its loaded blocks, the four statistics blocks each read along their one row; the row
  window's block at grid point t is rows 5000·t … 5000·t + 4999 of its array and the four statistics windows' blocks are
  their whole arrays; so what point t writes back is rows 5000·t … of `norm` of the whole arrays, and the ten points'
  blocks cover all 50000 rows.
-/
import proofs.«108814_j8572754723378_1_alg».proof.Proof.Gen.KernelIdeal.Frame
import proofs.«108814_j8572754723378_1_alg».proof.Proof.Spec
import Idealize.ShloMosaic.Lib.Pipeline.Value
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Bridge Cert.MatProduct

theorem hzero1 : (![0, 0] : Fin 2 → Nat) = fun _ => 0 := funext fun a => by fin_cases a <;> rfl

/-- The normalisation body's stored value is `norm` of the row block, each statistics block read along its one row. -/
theorem norm1_pay (va g : Vec Ideal S1x128 .f32) (x : Vec Ideal S5000x128 .f32) (mu be : Vec Ideal S1x128 .f32) :
    k1_pay1 (F := Ideal) va g x mu be
      = norm (M := 5000) x (fun j => mu (ix2 (0 : Fin 1) j)) (fun j => va (ix2 (0 : Fin 1) j)) (fun j => g (ix2 (0 : Fin 1) j))
          (fun j => be (ix2 (0 : Fin 1) j)) := by
  funext y
  obtain ⟨p, q, rfl⟩ : ∃ (p : Fin 5000) (q : Fin 128), y = ix2 p q := ⟨rowOf y, colOf y, eq_row_col y⟩
  rw [norm_apply]
  unfold k1_pay1
  simp only [shapeCast_self]
  have hg : broadcastTo S5000x128 g broadcasts_S1x128_S5000x128 (ix2 p q) = g (ix2 (0 : Fin 1) q) :=
    broadcastTo_1b_ab_apply (a := 5000) (b := 128) g broadcasts_S1x128_S5000x128 p q
  have hmu : broadcastTo S5000x128 mu broadcasts_S1x128_S5000x128 (ix2 p q) = mu (ix2 (0 : Fin 1) q) :=
    broadcastTo_1b_ab_apply (a := 5000) (b := 128) mu broadcasts_S1x128_S5000x128 p q
  have hbe : broadcastTo S5000x128 be broadcasts_S1x128_S5000x128 (ix2 p q) = be (ix2 (0 : Fin 1) q) :=
    broadcastTo_1b_ab_apply (a := 5000) (b := 128) be broadcasts_S1x128_S5000x128 p q
  have hs : broadcastTo S5000x128 (rsqrt (addf va (broadcast S1x128 (FloatOps.ofBits (F := Ideal) .f32 0x3727C5AC#32)))) broadcasts_S1x128_S5000x128 (ix2 p q)
      = Ideal.rsqrt (va (ix2 (0 : Fin 1) q) + epsW) :=
    broadcastTo_1b_ab_apply (a := 5000) (b := 128) _ broadcasts_S1x128_S5000x128 p q
  show broadcastTo S5000x128 g broadcasts_S1x128_S5000x128 (ix2 p q) * (x (ix2 p q) - broadcastTo S5000x128 mu broadcasts_S1x128_S5000x128 (ix2 p q))
        * broadcastTo S5000x128 (rsqrt (addf va (broadcast S1x128 (FloatOps.ofBits (F := Ideal) .f32 0x3727C5AC#32)))) broadcasts_S1x128_S5000x128 (ix2 p q)
      + broadcastTo S5000x128 be broadcasts_S1x128_S5000x128 (ix2 p q) = _
  rw [hg, hmu, hbe, hs]

variable (V : (c : Dev nD) → (b : Ref sig .tc) → Buf (Elt Ideal) ((c : Thread nD τ).loc b))

/-- The printed index maps over the ten grid points: the row windows sit at block row t, the others at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … of its array. -/
theorem rows1_0 (c : Dev nD) (t : Fin cfg1.N) :
    RowsAt (M := 5000) (R := 50000) (N := 128) (5000 * t.val) (iblk1 V c 0 t) (V c main_v16) := by
  intro p r j e
  show V c main_v16 (((cfg1.win 0).blk t).view.emb (ix2 p j)) = V c main_v16 (ix2 r j)
  refine congrArg _ (funext fun a => Fin.ext ?_)
  obtain ⟨e0, e1, -⟩ := idx1 t
  match a with
  | ⟨0, _⟩ => show win1_0.index t (0 : Fin 2) * 5000 + 1 * p.val = r.val; omega
  | ⟨1, _⟩ => show win1_0.index t (1 : Fin 2) * 128 + 1 * j.val = j.val; omega

/-- Window 1's block is its whole array. -/
theorem whole1_1 (c : Dev nD) (t : Fin cfg1.N) : (iblk1 V c 1 t : S1x128.Idx → EReal) = V c main_v21 := by
  funext y
  show V c main_v21 (((cfg1.win 1).blk t).view.emb y) = V c main_v21 y
  refine congrArg _ (funext fun a => Fin.ext ?_)
  obtain ⟨-, -, e0, e1, -⟩ := idx1 t
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2's block is its whole array. -/
theorem whole1_2 (c : Dev nD) (t : Fin cfg1.N) : (iblk1 V c 2 t : S1x128.Idx → EReal) = V c main_v22 := by
  funext y
  show V c main_v22 (((cfg1.win 2).blk t).view.emb y) = V c main_v22 y
  refine congrArg _ (funext fun a => Fin.ext ?_)
  obtain ⟨-, -, -, -, e0, e1, -⟩ := idx1 t
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block is its whole array. -/
theorem whole1_3 (c : Dev nD) (t : Fin cfg1.N) : (iblk1 V c 3 t : S1x128.Idx → EReal) = V c main_v23 := by
  funext y
  show V c main_v23 (((cfg1.win 3).blk t).view.emb y) = V c main_v23 y
  refine congrArg _ (funext fun a => Fin.ext ?_)
  obtain ⟨-, -, -, -, -, -, e0, e1, -⟩ := idx1 t
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block is its whole array. -/
theorem whole1_4 (c : Dev nD) (t : Fin cfg1.N) : (iblk1 V c 4 t : S1x128.Idx → EReal) = V c main_v24 := by
  funext y
  show V c main_v24 (((cfg1.win 4).blk t).view.emb y) = V c main_v24 y
  refine congrArg _ (funext fun a => Fin.ext ?_)
  obtain ⟨-, -, -, -, -, -, -, -, e0, e1, -⟩ := idx1 t
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The whole-array value of region 1 at the entry contents. -/
abbrev G1 (c : Dev nD) : S50000x128.Idx → EReal :=
  norm (M := 50000) (V c main_v16) (fun j => V c main_v21 (ix2 (0 : Fin 1) j)) (fun j => V c main_v22 (ix2 (0 : Fin 1) j))
    (fun j => V c main_v23 (ix2 (0 : Fin 1) j)) (fun j => V c main_v24 (ix2 (0 : Fin 1) j))

/-- What point t writes back is block t of the whole-array value. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hzero1]
  simp only [View.ld_unit_zero (S := S5000x128) hzero1, View.ld_unit_zero (S := S1x128) hzero1]
  rw [norm1_pay, whole1_1 V c t, whole1_2 V c t, whole1_3 V c t, whole1_4 V c t]
  funext y
  obtain ⟨p, q, rfl⟩ : ∃ (p : Fin 5000) (q : Fin 128), y = ix2 p q := ⟨rowOf y, colOf y, eq_row_col y⟩
  obtain ⟨-, -, -, -, -, -, -, -, -, -, e0, e1⟩ := idx1 t
  have ht : t.val < 10 := t.isLt
  have hr : 5000 * t.val + p.val < 50000 := by have := p.isLt; omega
  have hemb : ((cfg1.win 5).blk t).view.emb (ix2 p q) = ix2 (⟨5000 * t.val + p.val, hr⟩ : Fin 50000) q := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  show norm (M := 5000) (iblk1 V c 0 t) (fun j => V c main_v21 (ix2 (0 : Fin 1) j)) (fun j => V c main_v22 (ix2 (0 : Fin 1) j))
        (fun j => V c main_v23 (ix2 (0 : Fin 1) j)) (fun j => V c main_v24 (ix2 (0 : Fin 1) j)) (ix2 p q)
      = G1 V c (((cfg1.win 5).blk t).view.emb (ix2 p q))
  rw [hemb]
  exact norm_rows (rows1_0 V c t) _ _ _ _ p ⟨5000 * t.val + p.val, hr⟩ q rfl

/-- An index of the array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every row of the array is in the block of the point numbered by the row's quotient by 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by show _ < 10; omega⟩, flush1_5 _, ?_⟩
  rw [mem_blk1]
  obtain ⟨-, -, -, -, -, -, -, -, -, -, e0, e1⟩ := idx1 ⟨(i 0).val / 5000, by show _ < 10; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e1]; omega

/-- The array region 1 leaves: `norm` of its five arrays as the region finds them. -/
theorem final1 (c : Dev nD) : (dat1 V c).arrAt 5 cfg1.N = G1 V c :=
  (dat1 V c).arrAt_eq_of_cover 5 (G1 V c) (fun t _ => flushed1 V c t) cover1

end Cert.KernelIdeal.KVal

end
-- ==== Proof.KDense2.lean ====
/-
  The second layer's dense pass as a grid of row blocks: the array it leaves.

  The body's stored value is `dense` of its four loaded blocks; the two row windows' blocks at grid point t are rows
  5000·t … 5000·t + 4999 of their arrays, the weight and bias windows' blocks are their whole arrays; so what point t
  writes back is rows 5000·t … of `dense` of the whole arrays, and the ten points' blocks cover all 50000 rows.
-/
import proofs.«108814_j8572754723378_1_alg».proof.Proof.Gen.KernelIdeal.Frame
import proofs.«108814_j8572754723378_1_alg».proof.Proof.Spec
import Idealize.ShloMosaic.Lib.Pipeline.Value
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Bridge Cert.MatProduct

theorem hzero2 : (![0, 0] : Fin 2 → Nat) = fun _ => 0 := funext fun a => by fin_cases a <;> rfl

/-- The dense body's stored value is `dense` of the loaded blocks, the bias block read along its one row. -/
theorem dense2_pay (x0 x1 : Vec Ideal S5000x128 .f32) (x2 : Vec Ideal S128x128 .f32) (x3 : Vec Ideal S1x128 .f32) :
    k2_pay1 (F := Ideal) x0 x1 x2 x3 = dense (M := 5000) x0 x1 x2 (fun j => x3 (ix2 (0 : Fin 1) j)) := by
  funext y
  obtain ⟨p, q, rfl⟩ : ∃ (p : Fin 5000) (q : Fin 128), y = ix2 p q := ⟨rowOf y, colOf y, eq_row_col y⟩
  rw [dense_apply]
  unfold k2_pay1
  simp only [shapeCast_self]
  have hm : matmul dot_S5000x128_S128x128_S5000x128_1_0_0_1_n_n none (addf x0 x1) x2 (constant (F := Ideal) S5000x128 .f32 0x00000000#32) (ix2 p q)
      = ∑ k : Fin 128, (x0 (ix2 p k) + x1 (ix2 p k)) * x2 (ix2 k q) :=
    Cert.Sage.matmul_plain_zero_apply (M := 5000) (K := 128) (N := 128) (φ₁ := .f32) (φ₂ := .f32) none
      (addf (F := Ideal) (s := S5000x128) (φ := .f32) x0 x1) x2 p q
  have hb : broadcastTo S5000x128 x3 broadcasts_S1x128_S5000x128 (ix2 p q) = x3 (ix2 (0 : Fin 1) q) :=
    broadcastTo_1b_ab_apply (a := 5000) (b := 128) x3 broadcasts_S1x128_S5000x128 p q
  show max (matmul dot_S5000x128_S128x128_S5000x128_1_0_0_1_n_n none (addf x0 x1) x2 (constant (F := Ideal) S5000x128 .f32 0x00000000#32) (ix2 p q)
      + broadcastTo S5000x128 x3 broadcasts_S1x128_S5000x128 (ix2 p q)) zeroW = _
  rw [hm, hb]

variable (V : (c : Dev nD) → (b : Ref sig .tc) → Buf (Elt Ideal) ((c : Thread nD τ).loc b))

/-- The printed index maps over the ten grid points: the row windows sit at block row t, the others at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t is rows 5000·t … of its array. -/
theorem rows2_0 (c : Dev nD) (t : Fin cfg2.N) :
    RowsAt (M := 5000) (R := 50000) (N := 128) (5000 * t.val) (iblk2 V c 0 t) (V c main_v25) := by
  intro p r j e
  show V c main_v25 (((cfg2.win 0).blk t).view.emb (ix2 p j)) = V c main_v25 (ix2 r j)
  refine congrArg _ (funext fun a => Fin.ext ?_)
  obtain ⟨e0, e1, -⟩ := idx2 t
  match a with
  | ⟨0, _⟩ => show win2_0.index t (0 : Fin 2) * 5000 + 1 * p.val = r.val; omega
  | ⟨1, _⟩ => show win2_0.index t (1 : Fin 2) * 128 + 1 * j.val = j.val; omega

/-- Window 1's block at point t is rows 5000·t … of its array. -/
theorem rows2_1 (c : Dev nD) (t : Fin cfg2.N) :
    RowsAt (M := 5000) (R := 50000) (N := 128) (5000 * t.val) (iblk2 V c 1 t) (V c main_v35) := by
  intro p r j e
  show V c main_v35 (((cfg2.win 1).blk t).view.emb (ix2 p j)) = V c main_v35 (ix2 r j)
  refine congrArg _ (funext fun a => Fin.ext ?_)
  obtain ⟨-, -, e0, e1, -⟩ := idx2 t
  match a with
  | ⟨0, _⟩ => show win2_1.index t (0 : Fin 2) * 5000 + 1 * p.val = r.val; omega
  | ⟨1, _⟩ => show win2_1.index t (1 : Fin 2) * 128 + 1 * j.val = j.val; omega

/-- Window 2's block is its whole array. -/
theorem whole2_2 (c : Dev nD) (t : Fin cfg2.N) : (iblk2 V c 2 t : S128x128.Idx → EReal) = V c main_v36 := by
  funext y
  show V c main_v36 (((cfg2.win 2).blk t).view.emb y) = V c main_v36 y
  refine congrArg _ (funext fun a => Fin.ext ?_)
  obtain ⟨-, -, -, -, e0, e1, -⟩ := idx2 t
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3's block is its whole array. -/
theorem whole2_3 (c : Dev nD) (t : Fin cfg2.N) : (iblk2 V c 3 t : S1x128.Idx → EReal) = V c main_v37 := by
  funext y
  show V c main_v37 (((cfg2.win 3).blk t).view.emb y) = V c main_v37 y
  refine congrArg _ (funext fun a => Fin.ext ?_)
  obtain ⟨-, -, -, -, -, -, e0, e1, -⟩ := idx2 t
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The whole-array value of region 2 at the entry contents. -/
abbrev G2 (c : Dev nD) : S50000x128.Idx → EReal :=
  dense (M := 50000) (V c main_v25) (V c main_v35) (V c main_v36) (fun j => V c main_v37 (ix2 (0 : Fin 1) j))

/-- What point t writes back is block t of the whole-array value. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hzero2]
  simp only [View.ld_unit_zero (S := S5000x128) hzero2, View.ld_unit_zero (S := S128x128) hzero2, View.ld_unit_zero (S := S1x128) hzero2]
  rw [dense2_pay, whole2_2 V c t, whole2_3 V c t]
  funext y
  obtain ⟨p, q, rfl⟩ : ∃ (p : Fin 5000) (q : Fin 128), y = ix2 p q := ⟨rowOf y, colOf y, eq_row_col y⟩
  obtain ⟨-, -, -, -, -, -, -, -, e0, e1⟩ := idx2 t
  have ht : t.val < 10 := t.isLt
  have hr : 5000 * t.val + p.val < 50000 := by have := p.isLt; omega
  have hemb : ((cfg2.win 4).blk t).view.emb (ix2 p q) = ix2 (⟨5000 * t.val + p.val, hr⟩ : Fin 50000) q := by
    funext a; apply Fin.ext
    match a with
    | ⟨0, _⟩ => show win2_4.index t (0 : Fin 2) * 5000 + 1 * p.val = 5000 * t.val + p.val; omega
    | ⟨1, _⟩ => show win2_4.index t (1 : Fin 2) * 128 + 1 * q.val = q.val; omega
  show dense (M := 5000) (iblk2 V c 0 t) (iblk2 V c 1 t) (V c main_v36) (fun j => V c main_v37 (ix2 (0 : Fin 1) j)) (ix2 p q)
      = G2 V c (((cfg2.win 4).blk t).view.emb (ix2 p q))
  rw [hemb]
  exact dense_rows (rows2_0 V c t) (rows2_1 V c t) _ _ p ⟨5000 * t.val + p.val, hr⟩ q rfl

/-- An index of the array is in point t's block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v38).slice (win2_4.rect t)).set ↔ _
  rw [View.set_slice_whole, Rect.mem_set_unit]
  exact Iff.rfl

/-- Every row of the array is in the block of the point numbered by the row's quotient by 5000. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  refine ⟨⟨(i 0).val / 5000, by show _ < 10; omega⟩, flush2_4 _, ?_⟩
  rw [mem_blk2]
  obtain ⟨-, -, -, -, -, -, -, -, e0, e1⟩ := idx2 ⟨(i 0).val / 5000, by show _ < 10; omega⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ _ ∧ _ < (i 0).val / 5000 * 5000 + 5000; omega
  | ⟨1, _⟩ => show win2_4.index _ (1 : Fin 2) * 128 ≤ (i 1).val ∧ (i 1).val < win2_4.index _ (1 : Fin 2) * 128 + 128; rw [e1]; omega

/-- The array region 2 leaves: `dense` of its four arrays as the region finds them. -/
theorem final2 (c : Dev nD) : (dat2 V c).arrAt 4 cfg2.N = G2 V c :=
  (dat2 V c).arrAt_eq_of_cover 4 (G2 V c) (fun t _ => flushed2 V c t) cover2

end Cert.KernelIdeal.KVal

end
-- ==== Proof.KNorm3.lean ====
/-
  The second layer's normalisation pass as a grid of row blocks: the array it leaves.

  The body's stored value is `norm` of its loaded blocks, the four statistics blocks each read along their one row; the row
  window's block at grid point t is rows 5000·t … 5000·t + 4999 of its array and the four statistics windows' blocks are
  their whole arrays; so what point t writes back is rows 5000·t … of `norm` of the whole arrays, and the ten points'
  blocks cover all 50000 rows.
-/
import proofs.«108814_j8572754723378_1_alg».proof.Proof.Gen.KernelIdeal.Frame
import proofs.«108814_j8572754723378_1_alg».proof.Proof.Spec
import Idealize.ShloMosaic.Lib.Pipeline.Value
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Bridge Cert.MatProduct

theorem hzero3 : (![0, 0] : Fin 2 → Nat) = fun _ => 0 := funext fun a => by fin_cases a <;> rfl

/-- The normalisation body's stored value is `norm` of the row block, each statistics block read along its one row. -/
theorem norm3_pay (va g : Vec Ideal S1x128 .f32) (x : Vec Ideal S5000x128 .f32) (mu be : Vec Ideal S1x128 .f32) :
    k3_pay1 (F := Ideal) va g x mu be
      = norm (M := 5000) x (fun j => mu (ix2 (0 : Fin 1) j)) (fun j => va (ix2 (0 : Fin 1) j)) (fun j => g (ix2 (0 : Fin 1) j))
          (fun j => be (ix2 (0 : Fin 1) j)) := by
  funext y
  obtain ⟨p, q, rfl⟩ : ∃ (p : Fin 5000) (q : Fin 128), y = ix2 p q := ⟨rowOf y, colOf y, eq_row_col y⟩
  rw [norm_apply]
  unfold k3_pay1
  simp only [shapeCast_self]
  have hg : broadcastTo S5000x128 g broadcasts_S1x128_S5000x128 (ix2 p q) = g (ix2 (0 : Fin 1) q) :=
    broadcastTo_1b_ab_apply (a := 5000) (b := 128) g broadcasts_S1x128_S5000x128 p q
  have hmu : broadcastTo S5000x128 mu broadcasts_S1x128_S5000x128 (ix2 p q) = mu (ix2 (0 : Fin 1) q) :=
    broadcastTo_1b_ab_apply (a := 5000) (b := 128) mu broadcasts_S1x128_S5000x128 p q
  have hbe : broadcastTo S5000x128 be broadcasts_S1x128_S5000x128 (ix2 p q) = be (ix2 (0 : Fin 1) q) :=
    broadcastTo_1b_ab_apply (a := 5000) (b := 128) be broadcasts_S1x128_S5000x128 p q
  have hs : broadcastTo S5000x128 (rsqrt (addf va (broadcast S1x128 (FloatOps.ofBits (F := Ideal) .f32 0x3727C5AC#32)))) broadcasts_S1x128_S5000x128 (ix2 p q)
      = Ideal.rsqrt (va (ix2 (0 : Fin 1) q) + epsW) :=
    broadcastTo_1b_ab_apply (a := 5000) (b := 128) _ broadcasts_S1x128_S5000x128 p q
  show broadcastTo S5000x128 g broadcasts_S1x128_S5000x128 (ix2 p q) * (x (ix2 p q) - broadcastTo S5000x128 mu broadcasts_S1x128_S5000x128 (ix2 p q))
        * broadcastTo S5000x128 (rsqrt (addf va (broadcast S1x128 (FloatOps.ofBits (F := Ideal) .f32 0x3727C5AC#32)))) broadcasts_S1x128_S5000x128 (ix2 p q)
      + broadcastTo S5000x128 be broadcasts_S1x128_S5000x128 (ix2 p q) = _
  rw [hg, hmu, hbe, hs]

variable (V : (c : Dev nD) → (b : Ref sig .tc) → Buf (Elt Ideal) ((c : Thread nD τ).loc b))

/-- The printed index maps over the ten grid points: the row windows sit at block row t, the others at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t is rows 5000·t … of its array. -/
theorem rows3_0 (c : Dev nD) (t : Fin cfg3.N) :
    RowsAt (M := 5000) (R := 50000) (N := 128) (5000 * t.val) (iblk3 V c 0 t) (V c main_v38) := by
  intro p r j e
  show V c main_v38 (((cfg3.win 0).blk t).view.emb (ix2 p j)) = V c main_v38 (ix2 r j)
  refine congrArg _ (funext fun a => Fin.ext ?_)
  obtain ⟨e0, e1, -⟩ := idx3 t
  match a with
  | ⟨0, _⟩ => show win3_0.index t (0 : Fin 2) * 5000 + 1 * p.val = r.val; omega
  | ⟨1, _⟩ => show win3_0.index t (1 : Fin 2) * 128 + 1 * j.val = j.val; omega

/-- Window 1's block is its whole array. -/
theorem whole3_1 (c : Dev nD) (t : Fin cfg3.N) : (iblk3 V c 1 t : S1x128.Idx → EReal) = V c main_v43 := by
  funext y
  show V c main_v43 (((cfg3.win 1).blk t).view.emb y) = V c main_v43 y
  refine congrArg _ (funext fun a => Fin.ext ?_)
  obtain ⟨-, -, e0, e1, -⟩ := idx3 t
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block is its whole array. -/
theorem whole3_2 (c : Dev nD) (t : Fin cfg3.N) : (iblk3 V c 2 t : S1x128.Idx → EReal) = V c main_v44 := by
  funext y
  show V c main_v44 (((cfg3.win 2).blk t).view.emb y) = V c main_v44 y
  refine congrArg _ (funext fun a => Fin.ext ?_)
  obtain ⟨-, -, -, -, e0, e1, -⟩ := idx3 t
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block is its whole array. -/
theorem whole3_3 (c : Dev nD) (t : Fin cfg3.N) : (iblk3 V c 3 t : S1x128.Idx → EReal) = V c main_v45 := by
  funext y
  show V c main_v45 (((cfg3.win 3).blk t).view.emb y) = V c main_v45 y
  refine congrArg _ (funext fun a => Fin.ext ?_)
  obtain ⟨-, -, -, -, -, -, e0, e1, -⟩ := idx3 t
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array. -/
theorem whole3_4 (c : Dev nD) (t : Fin cfg3.N) : (iblk3 V c 4 t : S1x128.Idx → EReal) = V c main_v46 := by
  funext y
  show V c main_v46 (((cfg3.win 4).blk t).view.emb y) = V c main_v46 y
  refine congrArg _ (funext fun a => Fin.ext ?_)
  obtain ⟨-, -, -, -, -, -, -, -, e0, e1, -⟩ := idx3 t
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The whole-array value of region 3 at the entry contents. -/
abbrev G3 (c : Dev nD) : S50000x128.Idx → EReal :=
  norm (M := 50000) (V c main_v38) (fun j => V c main_v43 (ix2 (0 : Fin 1) j)) (fun j => V c main_v44 (ix2 (0 : Fin 1) j))
    (fun j => V c main_v45 (ix2 (0 : Fin 1) j)) (fun j => V c main_v46 (ix2 (0 : Fin 1) j))

/-- What point t writes back is block t of the whole-array value. -/
theorem flushed3 (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hzero3]
  simp only [View.ld_unit_zero (S := S5000x128) hzero3, View.ld_unit_zero (S := S1x128) hzero3]
  rw [norm3_pay, whole3_1 V c t, whole3_2 V c t, whole3_3 V c t, whole3_4 V c t]
  funext y
  obtain ⟨p, q, rfl⟩ : ∃ (p : Fin 5000) (q : Fin 128), y = ix2 p q := ⟨rowOf y, colOf y, eq_row_col y⟩
  obtain ⟨-, -, -, -, -, -, -, -, -, -, e0, e1⟩ := idx3 t
  have ht : t.val < 10 := t.isLt
  have hr : 5000 * t.val + p.val < 50000 := by have := p.isLt; omega
  have hemb : ((cfg3.win 5).blk t).view.emb (ix2 p q) = ix2 (⟨5000 * t.val + p.val, hr⟩ : Fin 50000) q := by
    funext a; apply Fin.ext
    match a with
    | ⟨0, _⟩ => show win3_5.index t (0 : Fin 2) * 5000 + 1 * p.val = 5000 * t.val + p.val; omega
    | ⟨1, _⟩ => show win3_5.index t (1 : Fin 2) * 128 + 1 * q.val = q.val; omega
  show norm (M := 5000) (iblk3 V c 0 t) (fun j => V c main_v43 (ix2 (0 : Fin 1) j)) (fun j => V c main_v44 (ix2 (0 : Fin 1) j))
        (fun j => V c main_v45 (ix2 (0 : Fin 1) j)) (fun j => V c main_v46 (ix2 (0 : Fin 1) j)) (ix2 p q)
      = G3 V c (((cfg3.win 5).blk t).view.emb (ix2 p q))
  rw [hemb]
  exact norm_rows (rows3_0 V c t) _ _ _ _ p ⟨5000 * t.val + p.val, hr⟩ q rfl

/-- An index of the array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v47).slice (win3_5.rect t)).set ↔ _
  rw [View.set_slice_whole, Rect.mem_set_unit]
  exact Iff.rfl

/-- Every row of the array is in the block of the point numbered by the row's quotient by 5000. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  refine ⟨⟨(i 0).val / 5000, by show _ < 10; omega⟩, flush3_5 _, ?_⟩
  rw [mem_blk3]
  obtain ⟨-, -, -, -, -, -, -, -, -, -, e0, e1⟩ := idx3 ⟨(i 0).val / 5000, by show _ < 10; omega⟩
  intro a
  match a with
  | ⟨0, _⟩ => show win3_5.index _ (0 : Fin 2) * 5000 ≤ (i 0).val ∧ (i 0).val < win3_5.index _ (0 : Fin 2) * 5000 + 5000; rw [e0]; show (i 0).val / 5000 * 5000 ≤ _ ∧ _ < (i 0).val / 5000 * 5000 + 5000; omega
  | ⟨1, _⟩ => show win3_5.index _ (1 : Fin 2) * 128 ≤ (i 1).val ∧ (i 1).val < win3_5.index _ (1 : Fin 2) * 128 + 128; rw [e1]; omega

/-- The array region 3 leaves: `norm` of its five arrays as the region finds them. -/
theorem final3 (c : Dev nD) : (dat3 V c).arrAt 5 cfg3.N = G3 V c :=
  (dat3 V c).arrAt_eq_of_cover 5 (G3 V c) (fun t _ => flushed3 V c t) cover3

end Cert.KernelIdeal.KVal

end
-- ==== Proof.KHost0.lean ====
/-
  The host operations before the first dense pass, read at the buffers later steps use.

  From any contents `U` of the buffers, after these nineteen operations: the source and destination lists are rows 0 and 1
  of the edge array; the neighbourhood sum is `agg` of the node array and the edge array; the weights are transposed; the
  bias is regarded as one row; and every argument array is untouched.
-/
import proofs.«108814_j8572754723378_1_alg».proof.Proof.Gen.KernelIdeal.Launch
import proofs.«108814_j8572754723378_1_alg».proof.Proof.KDefs
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal
variable [Facts]
open Facts₀ Facts

variable (U : Valuation τ sig (Elt Ideal))

set_option maxHeartbeats 1000000 in
/-- The neighbourhood sum's buffer. -/
theorem s0_v13 : after Gen.hostOps0 U (Proc.devRef .tc main_v13)
    = agg (U (Proc.devRef .tc main_arg0)) (U (Proc.devRef .tc main_arg1)) := by
  after_results_simp
  rfl

/-- The transposed weights' buffer. -/
theorem s0_v14 : after Gen.hostOps0 U (Proc.devRef .tc main_v14)
    = transpose S128x128 [1, 0] (U (Proc.devRef .tc main_arg2)) Facts₀.transposes_S128x128_S128x128_1_0 := by
  after_results_simp

/-- The bias row's buffer. -/
theorem s0_v15 : after Gen.hostOps0 U (Proc.devRef .tc main_v15)
    = shapeCast S1x128 (U (Proc.devRef .tc main_arg3)) Facts₀.shapeCasts_S128_S1x128 := by
  after_results_simp
  rfl

/-- The source list's buffer. -/
theorem s0_v1 : after Gen.hostOps0 U (Proc.devRef .tc main_v1)
    = shapeCast S600000 (extractStridedSlice S1x600000 ![0, 0] (U (Proc.devRef .tc main_arg1)) Facts₀.slices_S2x600000_S1x600000_0_0) Facts₀.shapeCasts_S1x600000_S600000 := by
  after_results_simp
  rfl

/-- The destination list's buffer. -/
theorem s0_v3 : after Gen.hostOps0 U (Proc.devRef .tc main_v3)
    = shapeCast S600000 (extractStridedSlice S1x600000 ![1, 0] (U (Proc.devRef .tc main_arg1)) Facts₀.slices_S2x600000_S1x600000_1_0) Facts₀.shapeCasts_S1x600000_S600000 := by
  after_results_simp
  rfl

theorem s0_arg0 : after Gen.hostOps0 U (Proc.devRef .tc main_arg0) = U (Proc.devRef .tc main_arg0) := by after_results_simp
theorem s0_arg4 : after Gen.hostOps0 U (Proc.devRef .tc main_arg4) = U (Proc.devRef .tc main_arg4) := by after_results_simp
theorem s0_arg5 : after Gen.hostOps0 U (Proc.devRef .tc main_arg5) = U (Proc.devRef .tc main_arg5) := by after_results_simp
theorem s0_arg6 : after Gen.hostOps0 U (Proc.devRef .tc main_arg6) = U (Proc.devRef .tc main_arg6) := by after_results_simp
theorem s0_arg7 : after Gen.hostOps0 U (Proc.devRef .tc main_arg7) = U (Proc.devRef .tc main_arg7) := by after_results_simp
theorem s0_arg8 : after Gen.hostOps0 U (Proc.devRef .tc main_arg8) = U (Proc.devRef .tc main_arg8) := by after_results_simp
theorem s0_arg9 : after Gen.hostOps0 U (Proc.devRef .tc main_arg9) = U (Proc.devRef .tc main_arg9) := by after_results_simp

end Cert.KernelIdeal.KVal

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.KHost1.lean ====
/-
  The host operations between the first layer's two passes, read at the buffers the normalisation pass uses.

  From any contents `U`, after the column mean, the column variance (an outlined function of twenty-two operations) and four
  changes of shape: the mean, the variance, the weight vector and the bias vector each stand as one row; the dense pass's
  output, the edge lists and the later arguments are untouched.
-/
import proofs.«108814_j8572754723378_1_alg».proof.Proof.Gen.KernelIdeal.Launch
import proofs.«108814_j8572754723378_1_alg».proof.Proof.KDefs
import proofs.«108814_j8572754723378_1_alg».proof.Proof.LibTRef
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal
variable [Facts]
open Facts₀ Facts

variable (U : Valuation τ sig (Elt Ideal))

/-- The mean row's buffer. -/
theorem s1_v21 : after Gen.hostOps1_2 (after Gen.hostOps1_1 (after Gen.hostOps1 U)) (Proc.devRef .tc main_v21)
    = shapeCast S1x128 (colMean (U (Proc.devRef .tc main_v16))) Facts₀.shapeCasts_S128_S1x128 := by
  after_results_simp
  rfl

set_option maxHeartbeats 1000000 in
/-- The variance row's buffer. -/
theorem s1_v22 : after Gen.hostOps1_2 (after Gen.hostOps1_1 (after Gen.hostOps1 U)) (Proc.devRef .tc main_v22)
    = shapeCast S1x128 (colVar (U (Proc.devRef .tc main_v16))) Facts₀.shapeCasts_S128_S1x128 := by
  after_results_simp
  simp only [Cert.LibTRef.ofBuf_toBuf]
  rfl

/-- The weight row's buffer. -/
theorem s1_v23 : after Gen.hostOps1_2 (after Gen.hostOps1_1 (after Gen.hostOps1 U)) (Proc.devRef .tc main_v23)
    = shapeCast S1x128 (U (Proc.devRef .tc main_arg4)) Facts₀.shapeCasts_S128_S1x128 := by
  after_results_simp
  rfl

/-- The bias row's buffer. -/
theorem s1_v24 : after Gen.hostOps1_2 (after Gen.hostOps1_1 (after Gen.hostOps1 U)) (Proc.devRef .tc main_v24)
    = shapeCast S1x128 (U (Proc.devRef .tc main_arg5)) Facts₀.shapeCasts_S128_S1x128 := by
  after_results_simp
  rfl

theorem s1_v16 : after Gen.hostOps1_2 (after Gen.hostOps1_1 (after Gen.hostOps1 U)) (Proc.devRef .tc main_v16) = U (Proc.devRef .tc main_v16) := by after_results_simp
theorem s1_v1 : after Gen.hostOps1_2 (after Gen.hostOps1_1 (after Gen.hostOps1 U)) (Proc.devRef .tc main_v1) = U (Proc.devRef .tc main_v1) := by after_results_simp
theorem s1_v3 : after Gen.hostOps1_2 (after Gen.hostOps1_1 (after Gen.hostOps1 U)) (Proc.devRef .tc main_v3) = U (Proc.devRef .tc main_v3) := by after_results_simp
theorem s1_arg6 : after Gen.hostOps1_2 (after Gen.hostOps1_1 (after Gen.hostOps1 U)) (Proc.devRef .tc main_arg6) = U (Proc.devRef .tc main_arg6) := by after_results_simp
theorem s1_arg7 : after Gen.hostOps1_2 (after Gen.hostOps1_1 (after Gen.hostOps1 U)) (Proc.devRef .tc main_arg7) = U (Proc.devRef .tc main_arg7) := by after_results_simp
theorem s1_arg8 : after Gen.hostOps1_2 (after Gen.hostOps1_1 (after Gen.hostOps1 U)) (Proc.devRef .tc main_arg8) = U (Proc.devRef .tc main_arg8) := by after_results_simp
theorem s1_arg9 : after Gen.hostOps1_2 (after Gen.hostOps1_1 (after Gen.hostOps1 U)) (Proc.devRef .tc main_arg9) = U (Proc.devRef .tc main_arg9) := by after_results_simp

end Cert.KernelIdeal.KVal

end
-- ==== Proof.KHost2.lean ====
/-
  The host operations before the second dense pass, read at the buffers that pass uses.

  From any contents `U`, after these fifteen operations: the neighbourhood sum is taken of the first layer's output along
  the edge lists already in their buffers (the same wrap of the source list, gather and scatter-add as in the first layer);
  the second weights are transposed; the second bias is regarded as one row; the first layer's output and the last two
  arguments are untouched.
-/
import proofs.«108814_j8572754723378_1_alg».proof.Proof.Gen.KernelIdeal.Launch
import proofs.«108814_j8572754723378_1_alg».proof.Proof.KDefs
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal
variable [Facts]
open Facts₀ Facts

variable (U : Valuation τ sig (Elt Ideal))

/-- The neighbourhood sum along edge lists given as contents of their buffers. -/
def aggOf (h : FVec Ideal S50000x128 .f32) (src dst : IVec S600000 32) : FVec Ideal S50000x128 .f32 :=
  Host.scatterAdd scatter_S50000x128_S600000x1_S600000x128_1_0_0_1
    (broadcastInDim S50000x128 ![] Facts₀.bcast_S_S50000x128 (constant (F := Ideal) S_ .f32 0x00000000#32))
    (broadcastInDim S600000x1 ![0] Facts₀.bcast_S600000_S600000x1_0 dst)
    (Host.gather gather_S50000x128_S600000x1_S600000x128_1_0_n_n_0_1_1128 h (broadcastInDim S600000x1 ![0] Facts₀.bcast_S600000_S600000x1_0
      (select (cmpi .slt src (broadcastInDim S600000 ![] Facts₀.bcast_S_S600000 (constantI S_ 32 0#32)))
        (addi src (broadcastInDim S600000 ![] Facts₀.bcast_S_S600000 (constantI S_ 32 50000#32))) src)))

/-- With the lists cut from the edge array, that is `agg`. -/
theorem aggOf_slices (h : FVec Ideal S50000x128 .f32) (ei : IVec S2x600000 32) :
    aggOf h (shapeCast S600000 (extractStridedSlice S1x600000 ![0, 0] ei Facts₀.slices_S2x600000_S1x600000_0_0) Facts₀.shapeCasts_S1x600000_S600000)
        (shapeCast S600000 (extractStridedSlice S1x600000 ![1, 0] ei Facts₀.slices_S2x600000_S1x600000_1_0) Facts₀.shapeCasts_S1x600000_S600000)
      = agg h ei := rfl

set_option maxHeartbeats 1000000 in
/-- The second neighbourhood sum's buffer. -/
theorem s2_v35 : after Gen.hostOps2 U (Proc.devRef .tc main_v35)
    = aggOf (U (Proc.devRef .tc main_v25)) (U (Proc.devRef .tc main_v1)) (U (Proc.devRef .tc main_v3)) := by
  after_results_simp
  rfl

/-- The second transposed weights' buffer. -/
theorem s2_v36 : after Gen.hostOps2 U (Proc.devRef .tc main_v36)
    = transpose S128x128 [1, 0] (U (Proc.devRef .tc main_arg6)) Facts₀.transposes_S128x128_S128x128_1_0 := by
  after_results_simp

/-- The second bias row's buffer. -/
theorem s2_v37 : after Gen.hostOps2 U (Proc.devRef .tc main_v37)
    = shapeCast S1x128 (U (Proc.devRef .tc main_arg7)) Facts₀.shapeCasts_S128_S1x128 := by
  after_results_simp
  rfl

theorem s2_v25 : after Gen.hostOps2 U (Proc.devRef .tc main_v25) = U (Proc.devRef .tc main_v25) := by after_results_simp
theorem s2_arg8 : after Gen.hostOps2 U (Proc.devRef .tc main_arg8) = U (Proc.devRef .tc main_arg8) := by after_results_simp
theorem s2_arg9 : after Gen.hostOps2 U (Proc.devRef .tc main_arg9) = U (Proc.devRef .tc main_arg9) := by after_results_simp

end Cert.KernelIdeal.KVal

end
-- ==== Proof.KHost3.lean ====
/-
  The host operations between the second layer's two passes, read at the buffers the normalisation pass uses.

  From any contents `U`, after the column mean, the column variance (an outlined function of twenty-two operations) and four
  changes of shape: the mean, the variance, the weight vector and the bias vector each stand as one row; the dense pass's
  output is untouched.
-/
import proofs.«108814_j8572754723378_1_alg».proof.Proof.Gen.KernelIdeal.Launch
import proofs.«108814_j8572754723378_1_alg».proof.Proof.KDefs
import proofs.«108814_j8572754723378_1_alg».proof.Proof.LibTRef
import Idealize.ShloMosaic.Lib.StableHlo.Run

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal
variable [Facts]
open Facts₀ Facts

variable (U : Valuation τ sig (Elt Ideal))

/-- The mean row's buffer. -/
theorem s3_v43 : after Gen.hostOps3_2 (after Gen.hostOps3_1 (after Gen.hostOps3 U)) (Proc.devRef .tc main_v43)
    = shapeCast S1x128 (colMean (U (Proc.devRef .tc main_v38))) Facts₀.shapeCasts_S128_S1x128 := by
  after_results_simp
  rfl

set_option maxHeartbeats 1000000 in
/-- The variance row's buffer. -/
theorem s3_v44 : after Gen.hostOps3_2 (after Gen.hostOps3_1 (after Gen.hostOps3 U)) (Proc.devRef .tc main_v44)
    = shapeCast S1x128 (colVar (U (Proc.devRef .tc main_v38))) Facts₀.shapeCasts_S128_S1x128 := by
  after_results_simp
  simp only [Cert.LibTRef.ofBuf_toBuf]
  rfl

/-- The weight row's buffer. -/
theorem s3_v45 : after Gen.hostOps3_2 (after Gen.hostOps3_1 (after Gen.hostOps3 U)) (Proc.devRef .tc main_v45)
    = shapeCast S1x128 (U (Proc.devRef .tc main_arg8)) Facts₀.shapeCasts_S128_S1x128 := by
  after_results_simp
  rfl

/-- The bias row's buffer. -/
theorem s3_v46 : after Gen.hostOps3_2 (after Gen.hostOps3_1 (after Gen.hostOps3 U)) (Proc.devRef .tc main_v46)
    = shapeCast S1x128 (U (Proc.devRef .tc main_arg9)) Facts₀.shapeCasts_S128_S1x128 := by
  after_results_simp
  rfl

theorem s3_v38 : after Gen.hostOps3_2 (after Gen.hostOps3_1 (after Gen.hostOps3 U)) (Proc.devRef .tc main_v38) = U (Proc.devRef .tc main_v38) := by after_results_simp

end Cert.KernelIdeal.KVal

end
-- ==== Proof.KValue.lean ====
/-
  The kernel program's result as two layers of the argument arrays.

  The run ends with the result buffer at the last region's array. Read back region by region: each region's array is
  `dense` or `norm` of the arrays the region finds; the host operations between regions put `agg`, the transposed weights,
  the column mean and variance and the one-row forms of the vectors into those arrays; and the buffers no step writes are
  as launched. Layer by layer this is `layer` of `layer` of the arguments.
-/
import proofs.«108814_j8572754723378_1_alg».proof.Proof.Gen.KernelIdeal.Frame
import proofs.«108814_j8572754723378_1_alg».proof.Proof.KDefs
import proofs.«108814_j8572754723378_1_alg».proof.Proof.KRun
import proofs.«108814_j8572754723378_1_alg».proof.Proof.KDense0
import proofs.«108814_j8572754723378_1_alg».proof.Proof.KNorm1
import proofs.«108814_j8572754723378_1_alg».proof.Proof.KDense2
import proofs.«108814_j8572754723378_1_alg».proof.Proof.KNorm3
import proofs.«108814_j8572754723378_1_alg».proof.Proof.KHost0
import proofs.«108814_j8572754723378_1_alg».proof.Proof.KHost1
import proofs.«108814_j8572754723378_1_alg».proof.Proof.KHost2
import proofs.«108814_j8572754723378_1_alg».proof.Proof.KHost3
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Idealize.ShloMosaic.StableHlo
open Cert.KernelIdeal Cert.KernelIdeal.Gen Cert.Gin

variable (m : (ℓ : Loc nD τ sig) → Buf (Elt Ideal) ℓ) (ρ : Dev nD → PrngReg) (c : Dev nD)

/-- A vector regarded as one row reads, along that row, as the vector. -/
theorem row_cols (v : FVec Ideal S128 .f32) :
    (fun j : Fin 128 => shapeCast S1x128 v Facts₀.shapeCasts_S128_S1x128 (ix2 (0 : Fin 1) j)) = fun j => v (ix1 j) :=
  funext fun j => shapeCast_a_1a_apply (a := 128) v Facts₀.shapeCasts_S128_S1x128 0 j

/-! ## Layer 1 -/

/-- After region 0 its output array is the first dense pass of the arguments. -/
theorem w2_v16 : W2 m ρ c (Proc.devRef .tc main_v16) = act (m ((c : Thread nD τ).loc main_arg0)) (m ((c : Thread nD τ).loc main_arg1)) (m ((c : Thread nD τ).loc main_arg2)) (m ((c : Thread nD τ).loc main_arg3)) := by
  refine (W2_arr m ρ c 4).trans ?_
  rw [final0 (V1 m ρ) c]
  show dense (M := 50000) (after hostOps0 (W0 m ρ c) (Proc.devRef .tc main_arg0)) (after hostOps0 (W0 m ρ c) (Proc.devRef .tc main_v13))
      (after hostOps0 (W0 m ρ c) (Proc.devRef .tc main_v14)) (fun j => after hostOps0 (W0 m ρ c) (Proc.devRef .tc main_v15) (ix2 (0 : Fin 1) j)) = _
  rw [s0_arg0, s0_v13, s0_v14, s0_v15, row_cols]
  rfl

theorem w2_arg4 : W2 m ρ c (Proc.devRef .tc main_arg4) = (m ((c : Thread nD τ).loc main_arg4)) :=
  (W2_of_ne m ρ c main_arg4 (by decide)).trans (s0_arg4 (W0 m ρ c))
theorem w2_arg5 : W2 m ρ c (Proc.devRef .tc main_arg5) = (m ((c : Thread nD τ).loc main_arg5)) :=
  (W2_of_ne m ρ c main_arg5 (by decide)).trans (s0_arg5 (W0 m ρ c))
theorem w2_arg6 : W2 m ρ c (Proc.devRef .tc main_arg6) = (m ((c : Thread nD τ).loc main_arg6)) :=
  (W2_of_ne m ρ c main_arg6 (by decide)).trans (s0_arg6 (W0 m ρ c))
theorem w2_arg7 : W2 m ρ c (Proc.devRef .tc main_arg7) = (m ((c : Thread nD τ).loc main_arg7)) :=
  (W2_of_ne m ρ c main_arg7 (by decide)).trans (s0_arg7 (W0 m ρ c))
theorem w2_arg8 : W2 m ρ c (Proc.devRef .tc main_arg8) = (m ((c : Thread nD τ).loc main_arg8)) :=
  (W2_of_ne m ρ c main_arg8 (by decide)).trans (s0_arg8 (W0 m ρ c))
theorem w2_arg9 : W2 m ρ c (Proc.devRef .tc main_arg9) = (m ((c : Thread nD τ).loc main_arg9)) :=
  (W2_of_ne m ρ c main_arg9 (by decide)).trans (s0_arg9 (W0 m ρ c))
theorem w2_v1 : W2 m ρ c (Proc.devRef .tc main_v1) = (shapeCast S600000 (extractStridedSlice S1x600000 ![0, 0] (m ((c : Thread nD τ).loc main_arg1)) Facts₀.slices_S2x600000_S1x600000_0_0) Facts₀.shapeCasts_S1x600000_S600000) :=
  (W2_of_ne m ρ c main_v1 (by decide)).trans (s0_v1 (W0 m ρ c))
theorem w2_v3 : W2 m ρ c (Proc.devRef .tc main_v3) = (shapeCast S600000 (extractStridedSlice S1x600000 ![1, 0] (m ((c : Thread nD τ).loc main_arg1)) Facts₀.slices_S2x600000_S1x600000_1_0) Facts₀.shapeCasts_S1x600000_S600000) :=
  (W2_of_ne m ρ c main_v3 (by decide)).trans (s0_v3 (W0 m ρ c))

/-- After region 1 its output array is the first layer of the arguments. -/
theorem w6_v25 : W6 m ρ c (Proc.devRef .tc main_v25) = (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W6_arr m ρ c 5).trans ?_
  rw [final1 (V5 m ρ) c]
  show norm (M := 50000) (after hostOps1_2 (after hostOps1_1 (after hostOps1 (W2 m ρ c))) (Proc.devRef .tc main_v16))
      (fun j => after hostOps1_2 (after hostOps1_1 (after hostOps1 (W2 m ρ c))) (Proc.devRef .tc main_v21) (ix2 (0 : Fin 1) j))
      (fun j => after hostOps1_2 (after hostOps1_1 (after hostOps1 (W2 m ρ c))) (Proc.devRef .tc main_v22) (ix2 (0 : Fin 1) j))
      (fun j => after hostOps1_2 (after hostOps1_1 (after hostOps1 (W2 m ρ c))) (Proc.devRef .tc main_v23) (ix2 (0 : Fin 1) j))
      (fun j => after hostOps1_2 (after hostOps1_1 (after hostOps1 (W2 m ρ c))) (Proc.devRef .tc main_v24) (ix2 (0 : Fin 1) j)) = _
  rw [s1_v16, s1_v21, s1_v22, s1_v23, s1_v24]
  simp only [row_cols]
  rw [w2_v16, w2_arg4, w2_arg5]
  rfl

/-! ## Layer 2 -/

theorem w6_arg6 : W6 m ρ c (Proc.devRef .tc main_arg6) = (m ((c : Thread nD τ).loc main_arg6)) :=
  (W6_of_ne m ρ c main_arg6 (by decide)).trans ((s1_arg6 (W2 m ρ c)).trans (w2_arg6 m ρ c))
theorem w6_arg7 : W6 m ρ c (Proc.devRef .tc main_arg7) = (m ((c : Thread nD τ).loc main_arg7)) :=
  (W6_of_ne m ρ c main_arg7 (by decide)).trans ((s1_arg7 (W2 m ρ c)).trans (w2_arg7 m ρ c))
theorem w6_arg8 : W6 m ρ c (Proc.devRef .tc main_arg8) = (m ((c : Thread nD τ).loc main_arg8)) :=
  (W6_of_ne m ρ c main_arg8 (by decide)).trans ((s1_arg8 (W2 m ρ c)).trans (w2_arg8 m ρ c))
theorem w6_arg9 : W6 m ρ c (Proc.devRef .tc main_arg9) = (m ((c : Thread nD τ).loc main_arg9)) :=
  (W6_of_ne m ρ c main_arg9 (by decide)).trans ((s1_arg9 (W2 m ρ c)).trans (w2_arg9 m ρ c))
theorem w6_v1 : W6 m ρ c (Proc.devRef .tc main_v1) = (shapeCast S600000 (extractStridedSlice S1x600000 ![0, 0] (m ((c : Thread nD τ).loc main_arg1)) Facts₀.slices_S2x600000_S1x600000_0_0) Facts₀.shapeCasts_S1x600000_S600000) :=
  (W6_of_ne m ρ c main_v1 (by decide)).trans ((s1_v1 (W2 m ρ c)).trans (w2_v1 m ρ c))
theorem w6_v3 : W6 m ρ c (Proc.devRef .tc main_v3) = (shapeCast S600000 (extractStridedSlice S1x600000 ![1, 0] (m ((c : Thread nD τ).loc main_arg1)) Facts₀.slices_S2x600000_S1x600000_1_0) Facts₀.shapeCasts_S1x600000_S600000) :=
  (W6_of_ne m ρ c main_v3 (by decide)).trans ((s1_v3 (W2 m ρ c)).trans (w2_v3 m ρ c))

/-- After region 2 its output array is the second dense pass of the first layer's output. -/
theorem w8_v38 : W8 m ρ c (Proc.devRef .tc main_v38) = act (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) := by
  refine (W8_arr m ρ c 4).trans ?_
  rw [final2 (V7 m ρ) c]
  show dense (M := 50000) (after hostOps2 (W6 m ρ c) (Proc.devRef .tc main_v25)) (after hostOps2 (W6 m ρ c) (Proc.devRef .tc main_v35))
      (after hostOps2 (W6 m ρ c) (Proc.devRef .tc main_v36)) (fun j => after hostOps2 (W6 m ρ c) (Proc.devRef .tc main_v37) (ix2 (0 : Fin 1) j)) = _
  rw [s2_v25, s2_v35, s2_v36, s2_v37, row_cols, w6_v25, w6_v1, w6_v3, w6_arg6, w6_arg7, aggOf_slices]
  rfl

theorem w8_arg8 : W8 m ρ c (Proc.devRef .tc main_arg8) = (m ((c : Thread nD τ).loc main_arg8)) :=
  (W8_of_ne m ρ c main_arg8 (by decide)).trans ((s2_arg8 (W6 m ρ c)).trans (w6_arg8 m ρ c))
theorem w8_arg9 : W8 m ρ c (Proc.devRef .tc main_arg9) = (m ((c : Thread nD τ).loc main_arg9)) :=
  (W8_of_ne m ρ c main_arg9 (by decide)).trans ((s2_arg9 (W6 m ρ c)).trans (w6_arg9 m ρ c))

/-- After region 3 the result buffer is the second layer of the first layer's output. -/
theorem w12_v47 : W12 m ρ c (Proc.devRef .tc main_v47)
    = layer (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9)) := by
  refine (W12_arr m ρ c 5).trans ?_
  rw [final3 (V11 m ρ) c]
  show norm (M := 50000) (after hostOps3_2 (after hostOps3_1 (after hostOps3 (W8 m ρ c))) (Proc.devRef .tc main_v38))
      (fun j => after hostOps3_2 (after hostOps3_1 (after hostOps3 (W8 m ρ c))) (Proc.devRef .tc main_v43) (ix2 (0 : Fin 1) j))
      (fun j => after hostOps3_2 (after hostOps3_1 (after hostOps3 (W8 m ρ c))) (Proc.devRef .tc main_v44) (ix2 (0 : Fin 1) j))
      (fun j => after hostOps3_2 (after hostOps3_1 (after hostOps3 (W8 m ρ c))) (Proc.devRef .tc main_v45) (ix2 (0 : Fin 1) j))
      (fun j => after hostOps3_2 (after hostOps3_1 (after hostOps3 (W8 m ρ c))) (Proc.devRef .tc main_v46) (ix2 (0 : Fin 1) j)) = _
  rw [s3_v38, s3_v43, s3_v44, s3_v45, s3_v46]
  simp only [row_cols]
  rw [w8_v38, w8_arg8, w8_arg9]
  rfl

/-! ## The run -/

/-- Every weakly fair execution of the kernel program terminates, nothing faulting, with the result at two layers of the
    arguments and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47)
        = layer (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w12_v47 m ρ c), (h c).2⟩) (run_named m ρ)

end Cert.KernelIdeal.KVal

end
-- ==== Proof.RefOps.lean ====
/-
  The reference program's host operations as one list, in program order: 136 operations. Each call of a
  module-local function is replaced by the operations of that function's body, its arguments the call's operands
  and its values the buffers of that call's record; a call inside such a body is replaced the same way. Every
  operation touches buffers of the TensorCore's references only.
-/
import proofs.«108814_j8572754723378_1_alg».proof.ReferenceIdeal
import Idealize.ShloMosaic.Lib.StableHlo.Run

noncomputable section

namespace Cert.ReferenceIdeal.RVal

open Cert.ReferenceIdeal Idealize.ShloMosaic Idealize.ShloMosaic.TcCoe Idealize.SL.Sem Idealize.ShloMosaic.StableHlo

variable {F : FTy → Type} [FloatOps F]
variable [Facts]
open Facts₀ Facts

/-- The 136 operations, in order. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg2 main_v15 ((transpose S128x128 [1, 0] · transposes_S128x128_S128x128_1_0) : (⟨S128x128, .f32⟩ : BufTy).Contents (Elt F) → (⟨S128x128, .f32⟩ : BufTy).Contents (Elt F)),
    StableHlo.binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x128, .f32⟩) (broadcastInDim S50000x128 ![] bcast_S_S50000x128),
    StableHlo.TRef.binary (.of main_v19 : StableHlo.TRef sig ⟨S50000x128, .f32⟩) (.of main_call0_v0 : StableHlo.TRef sig ⟨S50000x128, .f32⟩) (.of main_v20 : StableHlo.TRef sig ⟨S50000x128, .f32⟩) maximumf,
    StableHlo.nullary main_cst_1 (constant S_ .f32 0x00000000#32),
    StableHlo.binary main_v20 main_cst_1 main_v21 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v22 (broadcastInDim S128 ![] bcast_S_S128 : (⟨S_, .f32⟩ : BufTy).Contents (Elt F) → (⟨S128, .f32⟩ : BufTy).Contents (Elt F)),
    StableHlo.binary main_v21 main_v22 main_v23 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary (.of main_call1_cst : StableHlo.TRef sig ⟨S_, .f32⟩) (constant S_ .f32 0x00000000#32),
    StableHlo.TRef.binary (.of main_v20 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v20 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_3 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v24 : StableHlo.TRef sig ⟨S128, .f32⟩) (fun p a b => select (broadcastInDim S128 ![] bcast_S_S128 p) a b),
    StableHlo.unary main_v23 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v26 main_v27 (subf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v27 main_v30 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v24 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v35 main_v36 (mulf : (⟨S50000x128, .f32⟩ : BufTy).Contents (Elt F) → (⟨S50000x128, .f32⟩ : BufTy).Contents (Elt F) → (⟨S50000x128, .f32⟩ : BufTy).Contents (Elt F)),
    StableHlo.unary main_arg5 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v38 main_v39 (addf : (⟨S50000x128, .f32⟩ : BufTy).Contents (Elt F) → (⟨S50000x128, .f32⟩ : BufTy).Contents (Elt F) → (⟨S50000x128, .f32⟩ : BufTy).Contents (Elt F)),
    StableHlo.nullary main_c_5 (constantI S_ 32 0#32),
    StableHlo.unary main_c_5 main_v40 (broadcastInDim S600000 ![] bcast_S_S600000 : (⟨S_, .i32⟩ : BufTy).Contents (Elt F) → (⟨S600000, .i32⟩ : BufTy).Contents (Elt F)),
    StableHlo.binary main_v1 main_v40 main_v41 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v42 (broadcastInDim S600000 ![] bcast_S_S600000 : (⟨S_, .i32⟩ : BufTy).Contents (Elt F) → (⟨S600000, .i32⟩ : BufTy).Contents (Elt F)),
    StableHlo.binary main_v1 main_v42 main_v43 (addi : (⟨S600000, .i32⟩ : BufTy).Contents (Elt F) → (⟨S600000, .i32⟩ : BufTy).Contents (Elt F) → (⟨S600000, .i32⟩ : BufTy).Contents (Elt F)),
    StableHlo.ternary main_v41 main_v43 main_v1 main_v44 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v44 main_v45 (broadcastInDim S600000x1 ![0] bcast_S600000_S600000x1_0 : (⟨S600000, .i32⟩ : BufTy).Contents (Elt F) → (⟨S600000x1, .i32⟩ : BufTy).Contents (Elt F)),
    StableHlo.binary main_v39 main_v45 main_v46 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v47 (broadcastInDim S50000x128 ![] bcast_S_S50000x128 : (⟨S_, .f32⟩ : BufTy).Contents (Elt F) → (⟨S50000x128, .f32⟩ : BufTy).Contents (Elt F)),
    StableHlo.unary main_v3 main_v48 (broadcastInDim S600000x1 ![0] bcast_S600000_S600000x1_0 : (⟨S600000, .i32⟩ : BufTy).Contents (Elt F) → (⟨S600000x1, .i32⟩ : BufTy).Contents (Elt F)),
    StableHlo.ternary main_v47 main_v48 main_v46 main_v49 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v39 main_v49 main_v50 (addf : (⟨S50000x128, .f32⟩ : BufTy).Contents (Elt F) → (⟨S50000x128, .f32⟩ : BufTy).Contents (Elt F) → (⟨S50000x128, .f32⟩ : BufTy).Contents (Elt F)),
    StableHlo.unary main_arg6 main_v51 ((transpose S128x128 [1, 0] · transposes_S128x128_S128x128_1_0) : (⟨S128x128, .f32⟩ : BufTy).Contents (Elt F) → (⟨S128x128, .f32⟩ : BufTy).Contents (Elt F)),
    StableHlo.binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v55 : StableHlo.TRef sig ⟨S50000x128, .f32⟩) (.of main_call2_v0 : StableHlo.TRef sig ⟨S50000x128, .f32⟩) (.of main_v56 : StableHlo.TRef sig ⟨S50000x128, .f32⟩) maximumf,
    StableHlo.nullary main_cst_8 (constant S_ .f32 0x00000000#32),
    StableHlo.binary main_v56 main_cst_8 main_v57 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v58 (broadcastInDim S128 ![] bcast_S_S128 : (⟨S_, .f32⟩ : BufTy).Contents (Elt F) → (⟨S128, .f32⟩ : BufTy).Contents (Elt F)),
    StableHlo.binary main_v57 main_v58 main_v59 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call3_cst : StableHlo.TRef sig ⟨S_, .f32⟩) (constant S_ .f32 0x00000000#32),
    StableHlo.TRef.binary (.of main_v56 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1),
    StableHlo.TRef.binary (.of main_v56 : StableHlo.TRef sig ⟨S50000x128, .f32⟩) (.of main_call3_v4 : StableHlo.TRef sig ⟨S50000x128, .f32⟩) (.of main_call3_v5 : StableHlo.TRef sig ⟨S50000x128, .f32⟩) subf,
    StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf,
    StableHlo.TRef.unary (.of main_c_10 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v60 : StableHlo.TRef sig ⟨S128, .f32⟩) (fun p a b => select (broadcastInDim S128 ![] bcast_S_S128 p) a b),
    StableHlo.unary main_v59 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v62 main_v63 (subf : (⟨S50000x128, .f32⟩ : BufTy).Contents (Elt F) → (⟨S50000x128, .f32⟩ : BufTy).Contents (Elt F) → (⟨S50000x128, .f32⟩ : BufTy).Contents (Elt F)),
    StableHlo.unary main_arg8 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v63 main_v66 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v67 (broadcastInDim S128 ![] bcast_S_S128 : (⟨S_, .f32⟩ : BufTy).Contents (Elt F) → (⟨S128, .f32⟩ : BufTy).Contents (Elt F)),
    StableHlo.binary main_v60 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg9 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (addf : (⟨S50000x128, .f32⟩ : BufTy).Contents (Elt F) → (⟨S50000x128, .f32⟩ : BufTy).Contents (Elt F) → (⟨S50000x128, .f32⟩ : BufTy).Contents (Elt F)) ]

/-- Each operation touches TensorCore references only. -/
theorem ops_sub : (ops : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.ternary_bufs_sub .., StableHlo.binary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.unary_bufs_sub .., StableHlo.ternary_bufs_sub .., StableHlo.binary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.binary_bufs_sub .., StableHlo.nullary_bufs_sub .., StableHlo.unary_bufs_sub ..,
    StableHlo.binary_bufs_sub .., StableHlo.nullary_bufs_sub .., StableHlo.nullary_bufs_sub .., StableHlo.binary_bufs_sub .., StableHlo.unary_bufs_sub .., StableHlo.nullary_bufs_sub ..,
    StableHlo.unary_bufs_sub .., StableHlo.binary_bufs_sub .., StableHlo.unary_bufs_sub .., StableHlo.binary_bufs_sub .., StableHlo.binary_bufs_sub .., StableHlo.unary_bufs_sub ..,
    StableHlo.nullary_bufs_sub .., StableHlo.binary_bufs_sub .., StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub .., StableHlo.unary_bufs_sub .., StableHlo.ternary_bufs_sub ..,
    StableHlo.unary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.unary_bufs_sub .., StableHlo.binary_bufs_sub ..⟩

end Cert.ReferenceIdeal.RVal

end
-- ==== Proof.RefRun.lean ====
/-
  The reference program is the straight line of its host operations, and what it leaves in memory.

  With every call of a module-local function replaced by that function's body, the program's two windows run one after
  the other are one chain of host steps, the list of operations run in order. No buffer and no semaphore of the program
  is scoped. So from any memory with zero counters every weakly fair execution terminates, and each TensorCore buffer ends
  holding the fold of the operations' results over the contents at launch.
-/
import proofs.«108814_j8572754723378_1_alg».proof.Proof.RefOps

noncomputable section

namespace Cert.ReferenceIdeal.RVal

open Cert.ReferenceIdeal Idealize.ShloMosaic Idealize.ShloMosaic.TcCoe Idealize.SL.Sem Idealize.ShloMosaic.StableHlo

variable {F : FTy → Type} [FloatOps F]
variable [Facts]
open Facts₀ Facts

-- one hundred and thirty-six binds re-associated: the rewrite under the chain recurses once per statement
set_option maxRecDepth 4096 in
set_option maxHeartbeats 4000000 in
/-- The program is that straight line: the two windows and the functions' bodies unfolded at their calls, both sides are
    one chain of host steps once sequencing is re-associated. -/
theorem main_eq (c : Dev nD) : main (F := F) c = seq ops := by
  simp only [main, main_part0, main_part1, fn_relu.body, fn_var.body, fn_where.body, seq, bind_assoc, pure_bind]

/-- No TensorCore buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- From any memory with zero counters every weakly fair execution of the program terminates, and every final state has
    each TensorCore buffer at the fold of the operations' results over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RVal

end
-- ==== Proof.RefStretch.lean ====
/-
  The reference program's list of host operations cut in two consecutive stretches: the first 70 operations, up to
  the one that writes the first layer's result, and the remaining 66. The two stretches in order are the whole list.
-/
import proofs.«108814_j8572754723378_1_alg».proof.ReferenceIdeal
import Idealize.ShloMosaic.Lib.StableHlo.Run

noncomputable section

namespace Cert.ReferenceIdeal.RVal

open Cert.ReferenceIdeal Idealize.ShloMosaic Idealize.ShloMosaic.TcCoe Idealize.SL.Sem Idealize.ShloMosaic.StableHlo

variable {F : FTy → Type} [FloatOps F]
variable [Facts]
open Facts₀ Facts

/-- The first stretch: 70 operations, in order. -/
abbrev opsL1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg2 main_v15 ((transpose S128x128 [1, 0] · transposes_S128x128_S128x128_1_0) : (⟨S128x128, .f32⟩ : BufTy).Contents (Elt F) → (⟨S128x128, .f32⟩ : BufTy).Contents (Elt F)),
    StableHlo.binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x128, .f32⟩) (broadcastInDim S50000x128 ![] bcast_S_S50000x128),
    StableHlo.TRef.binary (.of main_v19 : StableHlo.TRef sig ⟨S50000x128, .f32⟩) (.of main_call0_v0 : StableHlo.TRef sig ⟨S50000x128, .f32⟩) (.of main_v20 : StableHlo.TRef sig ⟨S50000x128, .f32⟩) maximumf,
    StableHlo.nullary main_cst_1 (constant S_ .f32 0x00000000#32),
    StableHlo.binary main_v20 main_cst_1 main_v21 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v22 (broadcastInDim S128 ![] bcast_S_S128 : (⟨S_, .f32⟩ : BufTy).Contents (Elt F) → (⟨S128, .f32⟩ : BufTy).Contents (Elt F)),
    StableHlo.binary main_v21 main_v22 main_v23 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary (.of main_call1_cst : StableHlo.TRef sig ⟨S_, .f32⟩) (constant S_ .f32 0x00000000#32),
    StableHlo.TRef.binary (.of main_v20 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v20 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_3 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v24 : StableHlo.TRef sig ⟨S128, .f32⟩) (fun p a b => select (broadcastInDim S128 ![] bcast_S_S128 p) a b),
    StableHlo.unary main_v23 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v20 main_v26 main_v27 (subf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v27 main_v30 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v31 (broadcastInDim S128 ![] bcast_S_S128 : (⟨S_, .f32⟩ : BufTy).Contents (Elt F) → (⟨S128, .f32⟩ : BufTy).Contents (Elt F)),
    StableHlo.binary main_v24 main_v31 main_v32 (addf : (⟨S128, .f32⟩ : BufTy).Contents (Elt F) → (⟨S128, .f32⟩ : BufTy).Contents (Elt F) → (⟨S128, .f32⟩ : BufTy).Contents (Elt F)),
    StableHlo.unary main_v32 main_v33 (Host.rsqrt : (⟨S128, .f32⟩ : BufTy).Contents (Elt F) → (⟨S128, .f32⟩ : BufTy).Contents (Elt F)),
    StableHlo.unary main_v33 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v35 main_v36 (mulf : (⟨S50000x128, .f32⟩ : BufTy).Contents (Elt F) → (⟨S50000x128, .f32⟩ : BufTy).Contents (Elt F) → (⟨S50000x128, .f32⟩ : BufTy).Contents (Elt F)),
    StableHlo.unary main_arg5 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v38 main_v39 (addf : (⟨S50000x128, .f32⟩ : BufTy).Contents (Elt F) → (⟨S50000x128, .f32⟩ : BufTy).Contents (Elt F) → (⟨S50000x128, .f32⟩ : BufTy).Contents (Elt F)) ]

/-- The second stretch: 66 operations, in order. -/
abbrev opsL2 : List (HloOp τ sig (Elt F)) :=
  [ StableHlo.nullary main_c_5 (constantI S_ 32 0#32),
    StableHlo.unary main_c_5 main_v40 (broadcastInDim S600000 ![] bcast_S_S600000 : (⟨S_, .i32⟩ : BufTy).Contents (Elt F) → (⟨S600000, .i32⟩ : BufTy).Contents (Elt F)),
    StableHlo.binary main_v1 main_v40 main_v41 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v42 (broadcastInDim S600000 ![] bcast_S_S600000 : (⟨S_, .i32⟩ : BufTy).Contents (Elt F) → (⟨S600000, .i32⟩ : BufTy).Contents (Elt F)),
    StableHlo.binary main_v1 main_v42 main_v43 (addi : (⟨S600000, .i32⟩ : BufTy).Contents (Elt F) → (⟨S600000, .i32⟩ : BufTy).Contents (Elt F) → (⟨S600000, .i32⟩ : BufTy).Contents (Elt F)),
    StableHlo.ternary main_v41 main_v43 main_v1 main_v44 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v44 main_v45 (broadcastInDim S600000x1 ![0] bcast_S600000_S600000x1_0 : (⟨S600000, .i32⟩ : BufTy).Contents (Elt F) → (⟨S600000x1, .i32⟩ : BufTy).Contents (Elt F)),
    StableHlo.binary main_v39 main_v45 main_v46 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v47 (broadcastInDim S50000x128 ![] bcast_S_S50000x128 : (⟨S_, .f32⟩ : BufTy).Contents (Elt F) → (⟨S50000x128, .f32⟩ : BufTy).Contents (Elt F)),
    StableHlo.unary main_v3 main_v48 (broadcastInDim S600000x1 ![0] bcast_S600000_S600000x1_0 : (⟨S600000, .i32⟩ : BufTy).Contents (Elt F) → (⟨S600000x1, .i32⟩ : BufTy).Contents (Elt F)),
    StableHlo.ternary main_v47 main_v48 main_v46 main_v49 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v39 main_v49 main_v50 (addf : (⟨S50000x128, .f32⟩ : BufTy).Contents (Elt F) → (⟨S50000x128, .f32⟩ : BufTy).Contents (Elt F) → (⟨S50000x128, .f32⟩ : BufTy).Contents (Elt F)),
    StableHlo.unary main_arg6 main_v51 ((transpose S128x128 [1, 0] · transposes_S128x128_S128x128_1_0) : (⟨S128x128, .f32⟩ : BufTy).Contents (Elt F) → (⟨S128x128, .f32⟩ : BufTy).Contents (Elt F)),
    StableHlo.binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v55 : StableHlo.TRef sig ⟨S50000x128, .f32⟩) (.of main_call2_v0 : StableHlo.TRef sig ⟨S50000x128, .f32⟩) (.of main_v56 : StableHlo.TRef sig ⟨S50000x128, .f32⟩) maximumf,
    StableHlo.nullary main_cst_8 (constant S_ .f32 0x00000000#32),
    StableHlo.binary main_v56 main_cst_8 main_v57 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v58 (broadcastInDim S128 ![] bcast_S_S128 : (⟨S_, .f32⟩ : BufTy).Contents (Elt F) → (⟨S128, .f32⟩ : BufTy).Contents (Elt F)),
    StableHlo.binary main_v57 main_v58 main_v59 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary (.of main_call3_cst : StableHlo.TRef sig ⟨S_, .f32⟩) (constant S_ .f32 0x00000000#32),
    StableHlo.TRef.binary (.of main_v56 : StableHlo.TRef sig ⟨S50000x128, .f32⟩) (.of main_call3_cst : StableHlo.TRef sig ⟨S_, .f32⟩) (.of main_call3_v0 : StableHlo.TRef sig ⟨S128, .f32⟩) (fun x v => Host.reduceAdd x v reducesTo_S50000x128_S128_d0 h_S_),
    StableHlo.TRef.unary (.of main_call3_v0 : StableHlo.TRef sig ⟨S128, .f32⟩) (.of main_call3_v1 : StableHlo.TRef sig ⟨S1x128, .f32⟩) (broadcastInDim S1x128 ![1] bcast_S128_S1x128_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x128, .f32⟩) (broadcastInDim S1x128 ![] bcast_S_S1x128),
    StableHlo.TRef.binary (.of main_call3_v1 : StableHlo.TRef sig ⟨S1x128, .f32⟩) (.of main_call3_v2 : StableHlo.TRef sig ⟨S1x128, .f32⟩) (.of main_call3_v3 : StableHlo.TRef sig ⟨S1x128, .f32⟩) Host.divf,
    StableHlo.TRef.unary (.of main_call3_v3 : StableHlo.TRef sig ⟨S1x128, .f32⟩) (.of main_call3_v4 : StableHlo.TRef sig ⟨S50000x128, .f32⟩) (broadcastInDim S50000x128 ![0, 1] bcast_S1x128_S50000x128_0_1),
    StableHlo.TRef.binary (.of main_v56 : StableHlo.TRef sig ⟨S50000x128, .f32⟩) (.of main_call3_v4 : StableHlo.TRef sig ⟨S50000x128, .f32⟩) (.of main_call3_v5 : StableHlo.TRef sig ⟨S50000x128, .f32⟩) subf,
    StableHlo.TRef.binary (.of main_call3_v5 : StableHlo.TRef sig ⟨S50000x128, .f32⟩) (.of main_call3_v5 : StableHlo.TRef sig ⟨S50000x128, .f32⟩) (.of main_call3_v6 : StableHlo.TRef sig ⟨S50000x128, .f32⟩) mulf,
    StableHlo.TRef.unary (.of main_c_10 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x128, .f32⟩) (.of main_call3_cst_2 : StableHlo.TRef sig ⟨S_, .f32⟩) (.of main_call3_v9 : StableHlo.TRef sig ⟨S128, .f32⟩) (fun x v => Host.reduceAdd x v reducesTo_S50000x128_S128_d0 h_S_),
    StableHlo.TRef.unary (.of main_call3_v8 : StableHlo.TRef sig ⟨S_, .f32⟩) (.of main_call3_v10 : StableHlo.TRef sig ⟨S128, .f32⟩) (broadcastInDim S128 ![] bcast_S_S128),
    StableHlo.TRef.binary (.of main_call3_v9 : StableHlo.TRef sig ⟨S128, .f32⟩) (.of main_call3_v10 : StableHlo.TRef sig ⟨S128, .f32⟩) (.of main_call3_v11 : StableHlo.TRef sig ⟨S128, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S128, .f32⟩) (broadcastInDim S128 ![] bcast_S_S128),
    StableHlo.TRef.ternary (.of main_call3_v12 : StableHlo.TRef sig ⟨S_, .i1⟩) (.of main_call3_v11 : StableHlo.TRef sig ⟨S128, .f32⟩) (.of main_call3_call0_v1 : StableHlo.TRef sig ⟨S128, .f32⟩) (.of main_v60 : StableHlo.TRef sig ⟨S128, .f32⟩) (fun p a b => select (broadcastInDim S128 ![] bcast_S_S128 p) a b),
    StableHlo.unary main_v59 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v62 main_v63 (subf : (⟨S50000x128, .f32⟩ : BufTy).Contents (Elt F) → (⟨S50000x128, .f32⟩ : BufTy).Contents (Elt F) → (⟨S50000x128, .f32⟩ : BufTy).Contents (Elt F)),
    StableHlo.unary main_arg8 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v63 main_v66 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v67 (broadcastInDim S128 ![] bcast_S_S128 : (⟨S_, .f32⟩ : BufTy).Contents (Elt F) → (⟨S128, .f32⟩ : BufTy).Contents (Elt F)),
    StableHlo.binary main_v60 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_arg9 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (addf : (⟨S50000x128, .f32⟩ : BufTy).Contents (Elt F) → (⟨S50000x128, .f32⟩ : BufTy).Contents (Elt F) → (⟨S50000x128, .f32⟩ : BufTy).Contents (Elt F)) ]

end Cert.ReferenceIdeal.RVal

end
-- ==== Proof.RefDefs.lean ====
/-
  One layer of the network as a function of arrays of extended reals, over the reference program's shapes and facts.

  `agg h ei` adds, for every edge listed in `ei` (first row the sources, second row the destinations, a negative source
  counted from the end), the source's row of `h` into the destination's row of a zero array. `colMean x` is every column's
  sum over the 50000 rows divided by 50000; `colVar x` is the same mean of the squared differences from the column's mean,
  the divisor 50000 − 0 guarded to be positive as the program writes it. `act` is the dense pass: the rows of `h + agg h ei`
  times the transposed weights, plus the bias, clamped below at zero. `layer` shifts every column of that by its mean and
  scales it by its weight over the root of its variance plus ε, and adds its bias.
-/
import proofs.«108814_j8572754723378_1_alg».proof.ReferenceIdeal
import proofs.«108814_j8572754723378_1_alg».proof.Proof.Spec

noncomputable section

namespace Cert.ReferenceIdeal.RVal

open Idealize.ShloMosaic Idealize.ShloMosaic.ValueIdx Cert.ReferenceIdeal
variable [Facts]
open Facts₀ Facts

/-- The neighbourhood sum of the rows of `h` along the edges `ei`. -/
def agg (h : FVec Ideal S50000x128 .f32) (ei : IVec S2x600000 32) : FVec Ideal S50000x128 .f32 :=
  let src : IVec S600000 32 := shapeCast S600000 (extractStridedSlice S1x600000 ![0, 0] ei slices_S2x600000_S1x600000_0_0) shapeCasts_S1x600000_S600000
  let dst : IVec S600000 32 := shapeCast S600000 (extractStridedSlice S1x600000 ![1, 0] ei slices_S2x600000_S1x600000_1_0) shapeCasts_S1x600000_S600000
  let wrapped : IVec S600000 32 :=
    select (cmpi .slt src (broadcastInDim S600000 ![] bcast_S_S600000 (constantI S_ 32 0#32)))
      (addi src (broadcastInDim S600000 ![] bcast_S_S600000 (constantI S_ 32 50000#32))) src
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h (broadcastInDim S600000x1 ![0] bcast_S600000_S600000x1_0 wrapped))

/-- Each column's mean over the rows. -/
def colMean (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- Each column's mean squared distance to its mean. -/
def colVar (x : FVec Ideal S50000x128 .f32) : FVec Ideal S128 .f32 :=
  let mean : FVec Ideal S1x128 .f32 :=
    Host.divf (broadcastInDim S1x128 ![1] bcast_S128_S1x128_1 (Host.reduceAdd x (constant (F := Ideal) S_ .f32 0x00000000#32) reducesTo_S50000x128_S128_d0 h_S_))
      (broadcastInDim S1x128 ![] bcast_S_S1x128 (constant (F := Ideal) S_ .f32 0x47435000#32))
  let centred : FVec Ideal S50000x128 .f32 := subf x (broadcastInDim S50000x128 ![0, 1] bcast_S1x128_S50000x128_0_1 mean)
  let count : FVec Ideal S_ .f32 := subf (constant (F := Ideal) S_ .f32 0x47435000#32) (sitofp .f32 (constantI S_ 32 0#32))
  select (broadcastInDim S128 ![] bcast_S_S128 (cmpf .ogt count (constant (F := Ideal) S_ .f32 0x00000000#32)))
    (Host.divf (Host.reduceAdd (mulf centred centred) (constant (F := Ideal) S_ .f32 0x00000000#32) reducesTo_S50000x128_S128_d0 h_S_)
      (broadcastInDim S128 ![] bcast_S_S128 count))
    (broadcastInDim S128 ![] bcast_S_S128 (id (constant (F := Ideal) S_ .f32 0x7FC00000#32)))

/-- The dense pass of a layer: what the clamp leaves. -/
def act (h : FVec Ideal S50000x128 .f32) (ei : IVec S2x600000 32) (W : FVec Ideal S128x128 .f32) (b : FVec Ideal S128 .f32) :
    FVec Ideal S50000x128 .f32 :=
  Cert.Gin.dense (M := 50000) h (agg h ei) (transpose S128x128 [1, 0] W transposes_S128x128_S128x128_1_0) (fun j => b (ix1 j))

/-- One layer: the dense pass, then the normalisation by its own column statistics. -/
def layer (h : FVec Ideal S50000x128 .f32) (ei : IVec S2x600000 32) (W : FVec Ideal S128x128 .f32) (b g be : FVec Ideal S128 .f32) :
    FVec Ideal S50000x128 .f32 :=
  Cert.Gin.norm (M := 50000) (act h ei W b) (fun j => colMean (act h ei W b) (ix1 j)) (fun j => colVar (act h ei W b) (ix1 j))
    (fun j => g (ix1 j)) (fun j => be (ix1 j))

end Cert.ReferenceIdeal.RVal

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.RefPoint.lean ====
/-
  The reference's two array-level steps of a layer, read entry by entry.

  `denseStep h a w b` is the host's product of `h + a` with the transpose of `w`, plus the bias vector `b` regarded as one
  row and repeated down the rows, and then the maximum with a zero spread over the array: at entry (r, c) the number
  max(∑ₖ (h(r,k) + a(r,k)) · w(c,k) + b(c), 0). `normStep x mu va g be`, with each of the four vectors regarded as one row
  and repeated down the rows, is `g · (x − mu) · rsqrt(va + ε) + be`: at entry (r, c) the number
  g(c) · (x(r,c) − mu(c)) · rsqrt(va(c) + ε) + be(c), the host's reciprocal square root of an extended real being the
  textbook one. Both readings hold for all arrays: nothing is asked of the entries.
-/
import proofs.«108814_j8572754723378_1_alg».proof.ReferenceIdeal
import proofs.«108814_j8572754723378_1_alg».proof.Proof.Spec
import proofs.«108814_j8572754723378_1_alg».proof.Proof.LibHostRow
import Idealize.ShloMosaic.Lib.ValueIdx
import Idealize.ShloMosaic.Lib.Pipeline.Value
import Idealize.ShloMosaic.PureOps.Ideal.Laws

noncomputable section

namespace Cert.ReferenceIdeal.RVal

open Idealize.ShloMosaic Idealize.ShloMosaic.ValueIdx Cert.ReferenceIdeal Cert.LibHostRow
variable [Facts]
open Facts₀ Facts

/-- A vector regarded as one row and repeated down the 50000 rows. -/
def spread (v : FVec Ideal S128 .f32) : FVec Ideal S50000x128 .f32 :=
  broadcastInDim S50000x128 ![0, 1] bcast_S1x128_S50000x128_0_1 (broadcastInDim S1x128 ![1] bcast_S128_S1x128_1 v)

/-- The dense step as the reference writes it: product with the transposed weights, bias row, clamp at a spread zero. -/
def denseStep (h a : FVec Ideal S50000x128 .f32) (w : FVec Ideal S128x128 .f32) (b : FVec Ideal S128 .f32) :
    FVec Ideal S50000x128 .f32 :=
  maximumf (addf (Host.dotGeneral dot_S50000x128_S128x128_S50000x128_1_0_0_1_n_n none (addf h a)
        (transpose S128x128 [1, 0] w transposes_S128x128_S128x128_1_0)) (spread b))
    (broadcastInDim S50000x128 ![] bcast_S_S50000x128 (constant (F := Ideal) S_ .f32 0x00000000#32))

/-- The normalisation step as the reference writes it, every vector spread down the rows. -/
def normStep (x : FVec Ideal S50000x128 .f32) (mu va g be : FVec Ideal S128 .f32) : FVec Ideal S50000x128 .f32 :=
  addf (mulf (mulf (spread g) (subf x (spread mu)))
      (spread (Host.rsqrt (addf va (broadcastInDim S128 ![] bcast_S_S128 (constant (F := Ideal) S_ .f32 0x3727C5AC#32))))))
    (spread be)

/-- A spread vector reads, at (r, c), the vector's entry c. -/
theorem spread_apply (v : FVec Ideal S128 .f32) (r : Fin 50000) (c : Fin 128) : spread v (ix2 r c) = v (ix1 c) := by
  unfold spread
  rw [rows_apply, row_apply]

/-- The reference's dense step is the dense pass, entry by entry. -/
theorem dense_eq (h a : FVec Ideal S50000x128 .f32) (w : FVec Ideal S128x128 .f32) (b : FVec Ideal S128 .f32) :
    denseStep h a w b
      = Cert.Gin.dense (M := 50000) h a (transpose S128x128 [1, 0] w transposes_S128x128_S128x128_1_0) (fun j => b (ix1 j)) := by
  have hdot : Host.dotGeneral dot_S50000x128_S128x128_S50000x128_1_0_0_1_n_n none (addf h a)
        (transpose S128x128 [1, 0] w transposes_S128x128_S128x128_1_0)
      = Cert.MatProduct.prod (addf h a) (transpose S128x128 [1, 0] w transposes_S128x128_S128x128_1_0) :=
    Cert.MatProduct.dotGeneral_eq_prod (M := 50000) (K := 128) (N := 128) none .single (addf h a) _
  funext i
  unfold denseStep
  rw [Cert.MatProduct.eq_row_col i, Cert.Gin.dense_apply, maximumf_apply, addf_apply, hdot, scalar_apply, spread_apply,
    constant_apply]
  rfl

/-- The reference's normalisation step is the normalisation, entry by entry. -/
theorem norm_eq (x : FVec Ideal S50000x128 .f32) (mu va g be : FVec Ideal S128 .f32) :
    normStep x mu va g be
      = Cert.Gin.norm (M := 50000) x (fun j => mu (ix1 j)) (fun j => va (ix1 j)) (fun j => g (ix1 j)) (fun j => be (ix1 j)) := by
  funext i
  unfold normStep
  rw [Cert.MatProduct.eq_row_col i, Cert.Gin.norm_apply, addf_apply, mulf_apply, mulf_apply, subf_apply, spread_apply,
    spread_apply, spread_apply, spread_apply]
  show _ * _ * Ideal.rsqrt (va (ix1 _) + broadcastInDim S128 ![] bcast_S_S128 (constant (F := Ideal) S_ .f32 0x3727C5AC#32) (ix1 _)) + _ = _
  rw [scalar_apply, constant_apply]

end Cert.ReferenceIdeal.RVal

end
-- ==== Proof.LibAfter.lean ====
/-
  Running a list of host operations in two stretches.

  The contents every buffer holds after a list of host operations is a fold of the operations' results over the
  contents before it; the fold over a list split in two is the fold over the second part from what the first part
  leaves. So a long straight line can be read stretch by stretch, each from the contents at its start.
-/
import Idealize.ShloMosaic.Lib.StableHlo.Run

namespace Cert.LibAfter

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibAfter
-- ==== Proof.RefValue.lean ====
/-
  What the reference program leaves in its result buffer and in its ten argument buffers.

  The list of host operations is read in two consecutive stretches. From any contents V the first stretch leaves, in the
  buffer of the first layer's result, `layer` of the six arrays V holds at the first six arguments: the gather and
  scatter-add chain is `agg`, the product, bias and clamp the dense pass on it, the two column statistics `colMean` and
  `colVar` of the dense pass, and the last fifteen operations the normalisation by them. It also leaves the edge list's two
  rows where it computed them and does not touch the arguments. From any contents W holding those, the second stretch does
  the same to the array W holds in the first layer's result buffer, with the last four arguments' arrays. The fold over the
  whole list is the fold over the second stretch from what the first leaves, so the result buffer ends holding the second
  layer of the first, and no operation writes an argument buffer.
-/
import proofs.«108814_j8572754723378_1_alg».proof.Proof.RefRun
import proofs.«108814_j8572754723378_1_alg».proof.Proof.RefStretch
import proofs.«108814_j8572754723378_1_alg».proof.Proof.RefDefs
import proofs.«108814_j8572754723378_1_alg».proof.Proof.RefPoint
import proofs.«108814_j8572754723378_1_alg».proof.Proof.LibTRef
import proofs.«108814_j8572754723378_1_alg».proof.Proof.LibAfter

noncomputable section

namespace Cert.ReferenceIdeal.RVal

open Cert.ReferenceIdeal Idealize.ShloMosaic Idealize.ShloMosaic.TcCoe Idealize.SL.Sem Idealize.ShloMosaic.StableHlo
open Cert.LibTRef

variable [Facts]
open Facts₀ Facts

/-- The whole list is the two stretches in order. -/
theorem ops_split : (ops (F := Ideal)) = opsL1 ++ opsL2 := rfl

/-- The edge list's first row, as a vector: the sources. -/
def srcOf (ei : IVec S2x600000 32) : IVec S600000 32 :=
  shapeCast S600000 (extractStridedSlice S1x600000 ![0, 0] ei slices_S2x600000_S1x600000_0_0) shapeCasts_S1x600000_S600000
/-- The edge list's second row, as a vector: the destinations. -/
def dstOf (ei : IVec S2x600000 32) : IVec S600000 32 :=
  shapeCast S600000 (extractStridedSlice S1x600000 ![1, 0] ei slices_S2x600000_S1x600000_1_0) shapeCasts_S1x600000_S600000

/-! ## The first stretch, from any contents -/

section First
variable (V : Valuation τ sig (Elt Ideal))

set_option maxRecDepth 8192 in
set_option maxHeartbeats 4000000 in
/-- The gather and scatter-add chain leaves the neighbourhood sum. -/
theorem l1_agg : after opsL1 V (main_v13 : DevRef τ sig) = agg (V (main_arg0 : DevRef τ sig)) (V (main_arg1 : DevRef τ sig)) := by
  after_results_simp <;> rfl

set_option maxRecDepth 8192 in
set_option maxHeartbeats 4000000 in
/-- The clamp's buffer holds the dense step on the input and the neighbourhood sum's buffer. -/
theorem l1_act0 : after opsL1 V (main_v20 : DevRef τ sig)
    = denseStep (V (main_arg0 : DevRef τ sig)) (after opsL1 V (main_v13 : DevRef τ sig)) (V (main_arg2 : DevRef τ sig)) (V (main_arg3 : DevRef τ sig)) := by
  after_results_simp
  simp only [ofBuf_toBuf, toBuf_ofBuf]
  rfl

/-- The clamp's buffer holds the dense pass. -/
theorem l1_act : after opsL1 V (main_v20 : DevRef τ sig)
    = act (V (main_arg0 : DevRef τ sig)) (V (main_arg1 : DevRef τ sig)) (V (main_arg2 : DevRef τ sig)) (V (main_arg3 : DevRef τ sig)) := by
  rw [l1_act0, l1_agg, dense_eq]; rfl

set_option maxRecDepth 8192 in
set_option maxHeartbeats 4000000 in
/-- The mean's buffer holds the column means of the clamp's buffer. -/
theorem l1_mean : after opsL1 V (main_v23 : DevRef τ sig) = colMean (after opsL1 V (main_v20 : DevRef τ sig)) := by
  after_results_simp <;> rfl

set_option maxRecDepth 8192 in
set_option maxHeartbeats 4000000 in
/-- The variance's buffer holds the column variances of the clamp's buffer. -/
theorem l1_var : after opsL1 V (main_v24 : DevRef τ sig) = colVar (after opsL1 V (main_v20 : DevRef τ sig)) := by
  after_results_simp
  simp only [ofBuf_toBuf, toBuf_ofBuf]
  rfl

set_option maxRecDepth 8192 in
set_option maxHeartbeats 4000000 in
/-- The result's buffer holds the normalisation step on the three buffers before it. -/
theorem l1_out0 : after opsL1 V (main_v39 : DevRef τ sig)
    = normStep (after opsL1 V (main_v20 : DevRef τ sig)) (after opsL1 V (main_v23 : DevRef τ sig)) (after opsL1 V (main_v24 : DevRef τ sig))
        (V (main_arg4 : DevRef τ sig)) (V (main_arg5 : DevRef τ sig)) := by
  after_results_simp <;> rfl

/-- The first stretch leaves the first layer in its result's buffer. -/
theorem l1_out : after opsL1 V (main_v39 : DevRef τ sig)
    = layer (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [l1_out0, l1_mean, l1_var, l1_act, norm_eq]; rfl

set_option maxRecDepth 8192 in
set_option maxHeartbeats 4000000 in
/-- It leaves the sources where it computed them. -/
theorem l1_src : after opsL1 V (main_v1 : DevRef τ sig) = srcOf (V (main_arg1 : DevRef τ sig)) := by
  after_results_simp <;> rfl
set_option maxRecDepth 8192 in
set_option maxHeartbeats 4000000 in
/-- It leaves the destinations where it computed them. -/
theorem l1_dst : after opsL1 V (main_v3 : DevRef τ sig) = dstOf (V (main_arg1 : DevRef τ sig)) := by
  after_results_simp <;> rfl
set_option maxRecDepth 8192 in
set_option maxHeartbeats 4000000 in
theorem l1_arg6 : after opsL1 V (main_arg6 : DevRef τ sig) = V (main_arg6 : DevRef τ sig) := by after_results_simp
set_option maxRecDepth 8192 in
set_option maxHeartbeats 4000000 in
theorem l1_arg7 : after opsL1 V (main_arg7 : DevRef τ sig) = V (main_arg7 : DevRef τ sig) := by after_results_simp
set_option maxRecDepth 8192 in
set_option maxHeartbeats 4000000 in
theorem l1_arg8 : after opsL1 V (main_arg8 : DevRef τ sig) = V (main_arg8 : DevRef τ sig) := by after_results_simp
set_option maxRecDepth 8192 in
set_option maxHeartbeats 4000000 in
theorem l1_arg9 : after opsL1 V (main_arg9 : DevRef τ sig) = V (main_arg9 : DevRef τ sig) := by after_results_simp

end First

/-! ## The second stretch, from any contents that hold the two rows of the edge list -/

section Second
variable (W : Valuation τ sig (Elt Ideal)) (ei : IVec S2x600000 32)
variable (hs : W (main_v1 : DevRef τ sig) = srcOf ei) (hd : W (main_v3 : DevRef τ sig) = dstOf ei)

set_option maxRecDepth 8192 in
set_option maxHeartbeats 4000000 in
include hs hd in
/-- The gather and scatter-add chain leaves the neighbourhood sum of the first layer's result. -/
theorem l2_agg : after opsL2 W (main_v49 : DevRef τ sig) = agg (W (main_v39 : DevRef τ sig)) ei := by
  after_results_simp
  rw [hs, hd]
  rfl

set_option maxRecDepth 8192 in
set_option maxHeartbeats 4000000 in
theorem l2_act0 : after opsL2 W (main_v56 : DevRef τ sig)
    = denseStep (W (main_v39 : DevRef τ sig)) (after opsL2 W (main_v49 : DevRef τ sig)) (W (main_arg6 : DevRef τ sig)) (W (main_arg7 : DevRef τ sig)) := by
  after_results_simp
  simp only [ofBuf_toBuf, toBuf_ofBuf]
  rfl

include hs hd in
theorem l2_act : after opsL2 W (main_v56 : DevRef τ sig) = act (W (main_v39 : DevRef τ sig)) ei (W (main_arg6 : DevRef τ sig)) (W (main_arg7 : DevRef τ sig)) := by
  rw [l2_act0, l2_agg W ei hs hd, dense_eq]; rfl

set_option maxRecDepth 8192 in
set_option maxHeartbeats 4000000 in
theorem l2_mean : after opsL2 W (main_v59 : DevRef τ sig) = colMean (after opsL2 W (main_v56 : DevRef τ sig)) := by
  after_results_simp <;> rfl

set_option maxRecDepth 8192 in
set_option maxHeartbeats 4000000 in
theorem l2_var : after opsL2 W (main_v60 : DevRef τ sig) = colVar (after opsL2 W (main_v56 : DevRef τ sig)) := by
  after_results_simp
  simp only [ofBuf_toBuf, toBuf_ofBuf]
  rfl

set_option maxRecDepth 8192 in
set_option maxHeartbeats 4000000 in
theorem l2_out0 : after opsL2 W (main_v75 : DevRef τ sig)
    = normStep (after opsL2 W (main_v56 : DevRef τ sig)) (after opsL2 W (main_v59 : DevRef τ sig)) (after opsL2 W (main_v60 : DevRef τ sig))
        (W (main_arg8 : DevRef τ sig)) (W (main_arg9 : DevRef τ sig)) := by
  after_results_simp <;> rfl

include hs hd in
/-- The second stretch leaves, in the result's buffer, a layer of what the first layer's result buffer held. -/
theorem l2_out : after opsL2 W (main_v75 : DevRef τ sig)
    = layer (W (main_v39 : DevRef τ sig)) ei (W (main_arg6 : DevRef τ sig)) (W (main_arg7 : DevRef τ sig)) (W (main_arg8 : DevRef τ sig)) (W (main_arg9 : DevRef τ sig)) := by
  rw [l2_out0, l2_mean, l2_var, l2_act W ei hs hd, norm_eq]; rfl

end Second

/-! ## The whole list -/

section Whole
variable (V : Valuation τ sig (Elt Ideal))

/-- The result's buffer ends holding the second layer of the first. -/
theorem out_eq : after (ops (F := Ideal)) V (main_v75 : DevRef τ sig)
    = layer (layer (V (main_arg0 : DevRef τ sig)) (V (main_arg1 : DevRef τ sig)) (V (main_arg2 : DevRef τ sig)) (V (main_arg3 : DevRef τ sig)) (V (main_arg4 : DevRef τ sig)) (V (main_arg5 : DevRef τ sig)))
        (V (main_arg1 : DevRef τ sig)) (V (main_arg6 : DevRef τ sig)) (V (main_arg7 : DevRef τ sig)) (V (main_arg8 : DevRef τ sig)) (V (main_arg9 : DevRef τ sig)) := by
  rw [ops_split, Cert.LibAfter.after_append, l2_out (after opsL1 V) (V (main_arg1 : DevRef τ sig)) (l1_src V) (l1_dst V), l1_out, l1_arg6, l1_arg7, l1_arg8, l1_arg9]

set_option maxRecDepth 8192 in
set_option maxHeartbeats 4000000 in
/-- No operation writes argument 0's buffer. -/
theorem arg0_eq : after (ops (F := Ideal)) V (main_arg0 : DevRef τ sig) = V (main_arg0 : DevRef τ sig) := by after_results_simp
set_option maxRecDepth 8192 in
set_option maxHeartbeats 4000000 in
/-- No operation writes argument 1's buffer. -/
theorem arg1_eq : after (ops (F := Ideal)) V (main_arg1 : DevRef τ sig) = V (main_arg1 : DevRef τ sig) := by after_results_simp
set_option maxRecDepth 8192 in
set_option maxHeartbeats 4000000 in
/-- No operation writes argument 2's buffer. -/
theorem arg2_eq : after (ops (F := Ideal)) V (main_arg2 : DevRef τ sig) = V (main_arg2 : DevRef τ sig) := by after_results_simp
set_option maxRecDepth 8192 in
set_option maxHeartbeats 4000000 in
/-- No operation writes argument 3's buffer. -/
theorem arg3_eq : after (ops (F := Ideal)) V (main_arg3 : DevRef τ sig) = V (main_arg3 : DevRef τ sig) := by after_results_simp
set_option maxRecDepth 8192 in
set_option maxHeartbeats 4000000 in
/-- No operation writes argument 4's buffer. -/
theorem arg4_eq : after (ops (F := Ideal)) V (main_arg4 : DevRef τ sig) = V (main_arg4 : DevRef τ sig) := by after_results_simp
set_option maxRecDepth 8192 in
set_option maxHeartbeats 4000000 in
/-- No operation writes argument 5's buffer. -/
theorem arg5_eq : after (ops (F := Ideal)) V (main_arg5 : DevRef τ sig) = V (main_arg5 : DevRef τ sig) := by after_results_simp
set_option maxRecDepth 8192 in
set_option maxHeartbeats 4000000 in
/-- No operation writes argument 6's buffer. -/
theorem arg6_eq : after (ops (F := Ideal)) V (main_arg6 : DevRef τ sig) = V (main_arg6 : DevRef τ sig) := by after_results_simp
set_option maxRecDepth 8192 in
set_option maxHeartbeats 4000000 in
/-- No operation writes argument 7's buffer. -/
theorem arg7_eq : after (ops (F := Ideal)) V (main_arg7 : DevRef τ sig) = V (main_arg7 : DevRef τ sig) := by after_results_simp
set_option maxRecDepth 8192 in
set_option maxHeartbeats 4000000 in
/-- No operation writes argument 8's buffer. -/
theorem arg8_eq : after (ops (F := Ideal)) V (main_arg8 : DevRef τ sig) = V (main_arg8 : DevRef τ sig) := by after_results_simp
set_option maxRecDepth 8192 in
set_option maxHeartbeats 4000000 in
/-- No operation writes argument 9's buffer. -/
theorem arg9_eq : after (ops (F := Ideal)) V (main_arg9 : DevRef τ sig) = V (main_arg9 : DevRef τ sig) := by after_results_simp

end Whole

/-! ## The run -/

/-- From any memory with zero counters every weakly fair execution of the reference terminates; on every device the
    result buffer ends holding the second layer of the first layer of the argument arrays at launch, and the ten argument
    buffers end as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75)
        = layer (layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v75).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_main m ρ)

end Cert.ReferenceIdeal.RVal

end
-- ==== Proof.lean ====
/-
  The certificate of a two-layer GIN: a Pallas kernel program against its plain reference, on the extended reals.

  One layer, for node features h (50000 × 128), edge lists (source, destination), weights W, bias b, scale g and shift be:
    agg  = for each edge, the source's row of h added into the destination's row of a zero array;
    act  = max((h + agg) · Wᵀ + b, 0)                       (the dense pass);
    out  = g · (act − mean) · rsqrt(var + ε) + be            (the normalisation pass),
  where mean and var are act's column mean and column mean squared distance to it over the 50000 rows, and ε is the
  single-precision word nearest 10⁻⁵. Both programs apply two such layers to the input.

  The reference computes every step on the host. The kernel program computes agg, the transposed weights, mean and var with
  the very same host operations, and the two passes as grid kernels over ten blocks of 5000 rows. Both passes act on each row
  by itself (a row of the product only reads that row of the left factor; everything else is entry by entry or by column), so
  the block of rows a grid point writes is those rows of the pass applied to the whole arrays, and the ten blocks cover the
  array. At the extended reals the matrix unit accumulating into zero and the host's product are the same sum over the
  contracted index, and the two rsqrt are one function, so each pass equals its host form with no algebra beyond reading
  both sides at an index; no finiteness of the inputs is used. Hence both programs end at `layer (layer x …) …` of the
  argument arrays, the same term (the two programs' host chains are the same operations over equal records).

  The frames of the two kernel programs are the generated ones; the reference's frame is its run with the result dropped;
  the idealisation rewrote nothing, so `preserves` asks nothing.
-/
import proofs.«108814_j8572754723378_1_alg».proof.Defs
import proofs.«108814_j8572754723378_1_alg».proof.Proof.Gen.Kernel
import proofs.«108814_j8572754723378_1_alg».proof.Proof.Gen.Kernel.Frame
import proofs.«108814_j8572754723378_1_alg».proof.Proof.Gen.KernelIdeal
import proofs.«108814_j8572754723378_1_alg».proof.Proof.Gen.KernelIdeal.Frame
import proofs.«108814_j8572754723378_1_alg».proof.Proof.Gen.ReferenceIdeal
import proofs.«108814_j8572754723378_1_alg».proof.Proof.Gen.Pre_finite_inputs
import proofs.«108814_j8572754723378_1_alg».proof.Proof.KValue
import proofs.«108814_j8572754723378_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the result dropped. -/
theorem frame_referenceIdeal : Cert.frame_ReferenceIdeal := fun m ρ _ =>
  (θ_run Cert.ReferenceIdeal.defs _ _).mono (fun _ h c => (h c).2) (Cert.ReferenceIdeal.RVal.run m ρ)

/-- The two programs' layers are one function: the same host operations over records with the same fields. -/
theorem layer_eq (h : FVec Ideal Cert.KernelIdeal.S50000x128 .f32) (ei : IVec Cert.KernelIdeal.S2x600000 32)
    (W : FVec Ideal Cert.KernelIdeal.S128x128 .f32) (b g be : FVec Ideal Cert.KernelIdeal.S128 .f32) :
    Cert.ReferenceIdeal.RVal.layer h ei W b g be = Cert.KernelIdeal.KVal.layer h ei W b g be := rfl

/-- Both programs, from memories agreeing on the arguments, end with the result at two layers of the arguments. -/
theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RVal.run m' ρ')
  obtain ⟨e0, e1, e2, e3, e4, e5, e6, e7, e8, e9⟩ := hagree c
  rw [e0, e1, e2, e3, e4, e5, e6, e7, e8, e9, layer_eq, layer_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
